-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x68 : Shape := ⟨3, ![16, 2048, 68]⟩
abbrev S68x64 : Shape := ⟨2, ![68, 64]⟩
abbrev S_ : Shape := ⟨0, ![]⟩

class Facts : Prop where
  bcast_S_S16x2048x68 : S_.BroadcastsInDim S16x2048x68 (![] : Fin 0 → Fin S16x2048x68.rank)
  reducesTo_S16x2048x68_S_d0_1_2 : S16x2048x68.ReducesTo [0, 1, 2] S_
  h_S_ : 0 < S_.numel
  bcast_S_S68x64 : S_.BroadcastsInDim S68x64 (![] : Fin 0 → Fin S68x64.rank)
  reducesTo_S68x64_S_d0_1 : S68x64.ReducesTo [0, 1] S_

variable [Facts]

def fn_part1 {F : FTy → Type} [FloatOps F] (main_v13 : IVec S_ 1) (main_v16 : IVec S68x64 1) : IVec S_ 1 :=
  let main_c_5 : IVec S_ 1 := constantI S_ 1 1#1
  let main_v17 : IVec S_ 1 := (fun x v => Host.reduce IntOp.andi x v reducesTo_S68x64_S_d0_1 h_S_) main_v16 main_c_5
  let main_v18 : IVec S_ 1 := andi main_v13 main_v17
  main_v18

def fn {F : FTy → Type} [FloatOps F] (main_arg0 : FVec F S16x2048x68 .f32) (main_arg1 : FVec F S68x64 .f32) (main_arg2 : FVec F S68x64 .f32) (main_arg3 : FVec F S68x64 .f32) : IVec S_ 1 :=
  let main_v0 : FVec F S16x2048x68 .f32 := Host.absf main_arg0
  let main_cst : FVec F S_ .f32 := constant S_ .f32 0x7F800000#32
  let main_v1 : FVec F S16x2048x68 .f32 := broadcastInDim S16x2048x68 ![] bcast_S_S16x2048x68 main_cst
  let main_v2 : IVec S16x2048x68 1 := cmpf .olt main_v0 main_v1
  let main_c : IVec S_ 1 := constantI S_ 1 1#1
  let main_v3 : IVec S_ 1 := (fun x v => Host.reduce IntOp.andi x v reducesTo_S16x2048x68_S_d0_1_2 h_S_) main_v2 main_c
  let main_v4 : FVec F S68x64 .f32 := Host.absf main_arg1
  let main_cst_0 : FVec F S_ .f32 := constant S_ .f32 0x7F800000#32
  let main_v5 : FVec F S68x64 .f32 := broadcastInDim S68x64 ![] bcast_S_S68x64 main_cst_0
  let main_v6 : IVec S68x64 1 := cmpf .olt main_v4 main_v5
  let main_c_1 : IVec S_ 1 := constantI S_ 1 1#1
  let main_v7 : IVec S_ 1 := (fun x v => Host.reduce IntOp.andi x v reducesTo_S68x64_S_d0_1 h_S_) main_v6 main_c_1
  let main_v8 : IVec S_ 1 := andi main_v3 main_v7
  let main_v9 : FVec F S68x64 .f32 := Host.absf main_arg2
  let main_cst_2 : FVec F S_ .f32 := constant S_ .f32 0x7F800000#32
  let main_v10 : FVec F S68x64 .f32 := broadcastInDim S68x64 ![] bcast_S_S68x64 main_cst_2
  let main_v11 : IVec S68x64 1 := cmpf .olt main_v9 main_v10
  let main_c_3 : IVec S_ 1 := constantI S_ 1 1#1
  let main_v12 : IVec S_ 1 := (fun x v => Host.reduce IntOp.andi x v reducesTo_S68x64_S_d0_1 h_S_) main_v11 main_c_3
  let main_v13 : IVec S_ 1 := andi main_v8 main_v12
  let main_v14 : FVec F S68x64 .f32 := Host.absf main_arg3
  let main_cst_4 : FVec F S_ .f32 := constant S_ .f32 0x7F800000#32
  let main_v15 : FVec F S68x64 .f32 := broadcastInDim S68x64 ![] bcast_S_S68x64 main_cst_4
  let main_v16 : IVec S68x64 1 := cmpf .olt main_v14 main_v15
  fn_part1 (F := F) main_v13 main_v16
-- ==== Kernel.lean ====
abbrev S16x2048x68 : Shape := ⟨3, ![16, 2048, 68]⟩
abbrev S68x64 : Shape := ⟨2, ![68, 64]⟩
abbrev S68x192 : Shape := ⟨2, ![68, 192]⟩
abbrev S16x2048x64 : Shape := ⟨3, ![16, 2048, 64]⟩
abbrev S1x2048x68 : Shape := ⟨3, ![1, 2048, 68]⟩
abbrev S1x512x64 : Shape := ⟨3, ![1, 512, 64]⟩
abbrev S2048x64 : Shape := ⟨2, ![2048, 64]⟩
abbrev S2048x68 : Shape := ⟨2, ![2048, 68]⟩
abbrev S1x512x68 : Shape := ⟨3, ![1, 512, 68]⟩
abbrev S512x68 : Shape := ⟨2, ![512, 68]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S16x2048x68, .f32⟩
  | .hbm, ⟨1, _⟩ => ⟨S68x64, .f32⟩
  | .hbm, ⟨2, _⟩ => ⟨S68x64, .f32⟩
  | .hbm, ⟨3, _⟩ => ⟨S68x64, .f32⟩
  | .hbm, ⟨4, _⟩ => ⟨S68x192, .f32⟩
  | .hbm, ⟨5, _⟩ => ⟨S16x2048x64, .f32⟩
  | .local _ .vmem, ⟨0, _⟩ => ⟨S1x2048x68, .f32⟩
  | .local _ .vmem, ⟨1, _⟩ => ⟨S1x2048x68, .f32⟩
  | .local _ .vmem, ⟨2, _⟩ => ⟨S68x192, .f32⟩
  | .local _ .vmem, ⟨3, _⟩ => ⟨S1x512x64, .f32⟩
  | .local _ .vmem, ⟨4, _⟩ => ⟨S1x512x64, .f32⟩
  | .local _ .vmem, ⟨5, _⟩ => ⟨S2048x64, .bf16⟩
  | .local _ .vmem, ⟨6, _⟩ => ⟨S2048x64, .bf16⟩
  | _, _ => ⟨S16x2048x68, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x68 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S68x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  concatenates_S68x64_S68x64_S68x64_S68x192_d1 : Shape.Concatenates [S68x64, S68x64, S68x64] S68x192 1
  inb_S1x2048x68_S1x2048x68_0_0_0 : ∀ a, (![0, 0, 0] : Fin 3 → Nat) a + S1x2048x68.size a ≤ S1x2048x68.size a
  h_S1x2048x68 : 0 < S1x2048x68.numel
  shapeCasts_S1x2048x68_S2048x68 : S1x2048x68.ShapeCasts S2048x68
  bitsLt_bf16_f32 : FTy.bits .bf16 < FTy.bits .f32
  inb_S68x192_S68x64_0_64 : ∀ a, (![0, 64] : Fin 2 → Nat) a + S68x64.size a ≤ S68x192.size a
  h_S68x64 : 0 < S68x64.numel
  shapeCasts_S68x64_S68x64 : S68x64.ShapeCasts S68x64
  inb_S68x192_S68x64_0_128 : ∀ a, (![0, 128] : Fin 2 → Nat) a + S68x64.size a ≤ S68x192.size a
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  h_S1x512x68 : 0 < S1x512x68.numel
  shapeCasts_S1x512x68_S512x68 : S1x512x68.ShapeCasts S512x68
  inb_S68x192_S68x64_0_0 : ∀ a, (![0, 0] : Fin 2 → Nat) a + S68x64.size a ≤ S68x192.size a
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S2048x68_S68x64_S2048x64_1_0_0_1_n_n_wf : DotDims.WF S2048x68 S68x64 S2048x64 [1] [0] [0] [1] [] []
  dot_S512x68_S68x64_S512x64_1_0_0_1_n_n_wf : DotDims.WF S512x68 S68x64 S512x64 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x68.size a ≤ S1x2048x68.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x68.size a ≤ S16x2048x68.size a
  hwx0_0 : ∀ i : grid0.Coords, EltTy.bits .f32 = 32 ∨ (Rect.block (s := S16x2048x68) S1x2048x68.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S68x192.size a ≤ S68x192.size a
  hwx0_1 : ∀ i : grid0.Coords, EltTy.bits .f32 = 32 ∨ (Rect.block (s := S68x192) S68x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S16x2048x64.size a
  hwx0_2 : ∀ i : grid0.Coords, EltTy.bits .f32 = 32 ∨ (Rect.block (s := S16x2048x64) S1x512x64.size (cc0_transform_2 i) (hinb0_2 i)).WholeWords (EltTy.packing .f32)

variable [Facts₀]

def dot_S2048x68_S68x64_S2048x64_1_0_0_1_n_n : DotDims S2048x68 S68x64 S2048x64 where
  lhsContracting := [1]
  rhsContracting := [0]
  lhsNonContracting := [0]
  rhsNonContracting := [1]
  lhsBatch := []
  rhsBatch := []
  wf := dot_S2048x68_S68x64_S2048x64_1_0_0_1_n_n_wf
def dot_S512x68_S68x64_S512x64_1_0_0_1_n_n : DotDims S512x68 S68x64 S512x64 where
  lhsContracting := [1]
  rhsContracting := [0]
  lhsNonContracting := [0]
  rhsNonContracting := [1]
  lhsBatch := []
  rhsBatch := []
  wf := dot_S512x68_S68x64_S512x64_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x2048x68.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S68x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x68 : Shape := ⟨3, ![16, 2048, 68]⟩
abbrev S68x64 : Shape := ⟨2, ![68, 64]⟩
abbrev S16x2048x64 : Shape := ⟨3, ![16, 2048, 64]⟩
abbrev S_ : Shape := ⟨0, ![]⟩
abbrev S16x2048x2048 : Shape := ⟨3, ![16, 2048, 2048]⟩
abbrev S16x2048 : Shape := ⟨2, ![16, 2048]⟩
abbrev S16x2048x1 : Shape := ⟨3, ![16, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S16x2048x68, .f32⟩
  | .hbm, ⟨1, _⟩ => ⟨S68x64, .f32⟩
  | .hbm, ⟨2, _⟩ => ⟨S68x64, .f32⟩
  | .hbm, ⟨3, _⟩ => ⟨S68x64, .f32⟩
  | .hbm, ⟨4, _⟩ => ⟨S16x2048x64, .f32⟩
  | .hbm, ⟨5, _⟩ => ⟨S16x2048x64, .f32⟩
  | .hbm, ⟨6, _⟩ => ⟨S16x2048x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048, .f32⟩
  | .hbm, ⟨16, _⟩ => ⟨S_, .f32⟩
  | .hbm, ⟨17, _⟩ => ⟨S16x2048, .f32⟩
  | .hbm, ⟨18, _⟩ => ⟨S16x2048, .f32⟩
  | .hbm, ⟨19, _⟩ => ⟨S16x2048x1, .f32⟩
  | .hbm, ⟨20, _⟩ => ⟨S16x2048x2048, .f32⟩
  | .hbm, ⟨21, _⟩ => ⟨S16x2048x2048, .f32⟩
  | .hbm, ⟨22, _⟩ => ⟨S16x2048x2048, .f32⟩
  | .hbm, ⟨23, _⟩ => ⟨S_, .f32⟩
  | .hbm, ⟨24, _⟩ => ⟨S16x2048, .f32⟩
  | .hbm, ⟨25, _⟩ => ⟨S16x2048x1, .f32⟩
  | .hbm, ⟨26, _⟩ => ⟨S16x2048x2048, .f32⟩
  | .hbm, ⟨27, _⟩ => ⟨S16x2048x2048, .f32⟩
  | .hbm, ⟨28, _⟩ => ⟨S16x2048x64, .f32⟩
  | _, _ => ⟨S16x2048x68, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x68_S68x64_S16x2048x64_2_0_01_1_n_n_wf : DotDims.WF S16x2048x68 S68x64 S16x2048x64 [2] [0] [0, 1] [1] [] []
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x68_S68x64_S16x2048x64_2_0_01_1_n_n : DotDims S16x2048x68 S68x64 S16x2048x64 where
  lhsContracting := [2]
  rhsContracting := [0]
  lhsNonContracting := [0, 1]
  rhsNonContracting := [1]
  lhsBatch := []
  rhsBatch := []
  wf := dot_S16x2048x68_S68x64_S16x2048x64_2_0_01_1_n_n_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.LibNary3.lean ====
/-
  A host operation with three operands, read at its result.

  The result of an operation over a literal family of three buffers is its function applied to the three buffers'
  contents, each named at its own buffer (rather than as a function of the position in the family), so that what
  each of the three held can be rewritten further, one operation at a time.
-/
import Idealize.ShloMosaic.Lib.StableHlo.Run

noncomputable section

namespace Idealize.ShloMosaic.StableHlo

variable {τ : Topo} {sig : RefSig} {Val : EltTy → Type}
variable {x a b y : Ref sig .tc}

/-- A three-operand operation's result, the operands' contents each at its own buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- What one buffer holds after a straight line of host operations, three-operand operations included: each
    operation's result at its own buffer is its function's value, at any other buffer what was there. -/
macro "after_results3" : tactic =>
  `(tactic| (simp only [after_cons, after_nil]
             repeat (first
               | rw [nullary_result] | rw [unary_result] | rw [binary_result] | rw [ternary_result] | rw [quaternary_result]
               | rw [reshape_result] | rw [nary3_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Idealize.ShloMosaic.StableHlo

end
-- ==== Proof.BitsBase.lean ====
/-
  The setting of the attention kernel's run: what the region finds in memory, and where its grid points branch.

  @main first lays the three weight matrices side by side (query columns 0–63, key columns 64–127, value columns
  128–191) and then launches the region on a 16 × 4 grid: coordinate 0 is the batch row, coordinate 1 the tile of
  512 query rows. The region's windows are the batch row of x (2048 × 68), the whole 68 × 192 weight matrix, and
  the 512 × 64 output tile. The body projects keys and values for the whole batch row into two scratch buffers
  when the tile coordinate is 0 and reuses them at tiles 1, 2, 3: so the grid points fall in two classes by
  their position modulo 4.
-/
import proofs.«158138_j30391188587331_2_alg».proof.Proof.Gen.Kernel.Launch
import proofs.«158138_j30391188587331_2_alg».proof.Proof.Gen.Kernel.Skeleton
import proofs.«158138_j30391188587331_2_alg».proof.Proof.Gen.Kernel.Points
import proofs.«158138_j30391188587331_2_alg».proof.Proof.LibNary3
import Idealize.ShloMosaic.Lib.Pipeline.FrameBody
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Memory at the region's entry -/

/-- What each TensorCore buffer of core `c` holds when the region is entered: the initial memory with the
    concatenated weight matrix written. -/
abbrev V0 (c : Dev nD) : Valuation τ sig (Elt F) := StableHlo.after hostOps0 (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the concatenation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The concatenation writes its own result buffer only: the four argument arrays are as they were. -/
theorem V_main_arg0 (c : Dev nD) : V m c main_arg0 = m ((c : Thread nD τ).loc main_arg0) := by
  dsimp only [V, V0, hostOps0]; after_results3
theorem V_main_arg1 (c : Dev nD) : V m c main_arg1 = m ((c : Thread nD τ).loc main_arg1) := by
  dsimp only [V, V0, hostOps0]; after_results3
theorem V_main_arg2 (c : Dev nD) : V m c main_arg2 = m ((c : Thread nD τ).loc main_arg2) := by
  dsimp only [V, V0, hostOps0]; after_results3
theorem V_main_arg3 (c : Dev nD) : V m c main_arg3 = m ((c : Thread nD τ).loc main_arg3) := by
  dsimp only [V, V0, hostOps0]; after_results3

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the batch row of x holds that row at every point, whether the pipeline fetched it there
    (tile 0) or left it in place (tiles 1–3: the batch coordinate has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of the weights holds the whole weight matrix at every point (fetched once). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The tile coordinate is 0 exactly at the points ≡ 0 (mod 4) -/

/-- The body's test "this is the first tile of the batch row", as the body computes it from the grid coordinates. -/
abbrev firstTile (i : grid0.Coords) : Prop := (Scalar.cmpi .ne (Scalar.extui (Scalar.cmpi .eq (BitVec.ofNat 32 (i 1).val) 0#32)) 0#32) = 1#1
theorem firstTile_iff : ∀ t : Fin cfg0.N, firstTile (grid0.coords t) ↔ t.val % 4 = 0 :=
  (by decide +kernel : ∀ t : Fin grid0.N, firstTile (grid0.coords t) ↔ t.val % 4 = 0)

/-- No window is ever idle: the inputs are read and the output tile is stored whole at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-! ## The memrefs the body is called with -/

abbrev mx (t : Fin cfg0.N) : Memref sig .tc .vmem S1x2048x68 .f32 := win0_0.stage (cfg0.slots t 0)
abbrev hmx (t : Fin cfg0.N) : (mx t).IsWhole := hstage0_0 ((cfg0.slots t 0).cast nbuf0_0)
abbrev mw (t : Fin cfg0.N) : Memref sig .tc .vmem S68x192 .f32 := win0_1.stage (cfg0.slots t 1)
abbrev hmw (t : Fin cfg0.N) : (mw t).IsWhole := hstage0_1 ((cfg0.slots t 1).cast nbuf0_1)
abbrev mo (t : Fin cfg0.N) : Memref sig .tc .vmem S1x512x64 .f32 := win0_2.stage (cfg0.slots t 2)
abbrev hmo (t : Fin cfg0.N) : (mo t).IsWhole := hstage0_2 ((cfg0.slots t 2).cast nbuf0_2)
/-- The two scratch buffers: the projected keys and the projected values of the current batch row. -/
abbrev kM : Memref sig .tc .vmem S2048x64 .bf16 := Memref.whole cc0_scratch0
abbrev vM : Memref sig .tc .vmem S2048x64 .bf16 := Memref.whole cc0_scratch1
/-- Views through which the contents of the output tile and of the two scratch buffers are stated. -/
abbrev oView : View sig .tc .vmem S1x512x64 .f32 := (Memref.whole cc0_stg2_0 : Memref sig .tc .vmem S1x512x64 .f32).view
abbrev kView : View sig .tc .vmem S2048x64 .bf16 := kM.view
abbrev vView : View sig .tc .vmem S2048x64 .bf16 := vM.view

/-- What a body of this region may use beyond its windows: the two scratch buffers, each at some contents, and the
    generator register. -/
theorem PhiA_eq (c : Dev nD) :
    (Pipeline.ΦA spec0 c : sProp 𝕄)
      = iprop(iprop((∃ d, owns (c : Thread nD τ) kM fullShare d) ∗ (∃ d, owns (c : Thread nD τ) vM fullShare d)) ∗ (∃ r, prngReg c r)) := by
  unfold Pipeline.ΦA; rw [scopedRest0_eq]; simp only [kM, vM, owns_whole]; try rfl

end Cert.Kernel.Attn

end
-- ==== Proof.BitsRuns.lean ====
/-
  The attention body run once, in each of its two classes of grid points.

  At the first tile of a batch row the body projects the row's keys and values (x·W_k and x·W_v over the whole
  2048 rows) into the two scratch buffers, whatever they held, and then computes its output tile from them; at
  the later tiles it reads the scratch buffers as the first tile left them and stores nothing into them. In both
  classes the output tile is stored whole. What is recorded here is, per class, the list of stores each buffer
  ends with, and that the body runs to its end from the buffers' contents without a fault.
-/
import proofs.«158138_j30391188587331_2_alg».proof.Proof.BitsBase

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The first tile of a batch row: the stores the output tile and the two scratch buffers end with, and the run. -/
noncomputable def runFirst (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : firstTile i)
    (x0 : Vec F S1x2048x68 .f32) (x1 : Vec F S68x192 .f32) :
    Σ' (LO : List (View.Piece (Elt F) S1x512x64 .f32)) (LK : List (View.Piece (Elt F) S2048x64 .bf16)), { LV : List (View.Piece (Elt F) S2048x64 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LK)
                ∗ (∃ f, arg6.view.loc (c : Thread nD τ) ↦[arg6.view.set]{fullShare} arg6.view.writes (Elt F) f LV)) -∗ K ⟨⟩))
          ⊢ wp frame (wpE (defs₀ (F := F)) Variants.none c none) E (cc0__fused_kernel i arg2 harg2 arg3 harg3 arg4 harg4 arg5 harg5 arg6 harg6) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%d2, %f2, -, H2⟩, ⟨%d5, %f5, -, H5⟩, ⟨%d6, %f6, -, H6⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H5]; · iexists _; iexact H5
    iexists _; iexact H6

set_option maxHeartbeats 1000000 in
/-- A later tile of a batch row: the scratch buffers are read at what they hold and handed back as they were;
    the stores the output tile ends with, and the run. -/
noncomputable def runLater (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : ¬firstTile i)
    (x0 : Vec F S1x2048x68 .f32) (x1 : Vec F S68x192 .f32) (k0 v0 : Vec F S2048x64 .bf16) :
    { LO : List (View.Piece (Elt F) S1x512x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare k0 ∗ owns (c : Thread nD τ) arg6 fullShare v0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ owns (c : Thread nD τ) arg5 fullShare k0 ∗ owns (c : Thread nD τ) arg6 fullShare v0) -∗ K ⟨⟩))
          ⊢ wp frame (wpE (defs₀ (F := F)) Variants.none c none) E (cc0__fused_kernel i arg2 harg2 arg3 harg3 arg4 harg4 arg5 harg5 arg6 harg6) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%d2, %f2, -, H2⟩, ⟨%f5, %hf5, H5⟩, ⟨%f6, %hf6, H6⟩, Hk⟩
    obtain rfl := harg2.eq_unread hf0; obtain rfl := harg3.eq_unread hf1
    obtain rfl := harg5.eq_unread hf5; obtain rfl := harg6.eq_unread hf6
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H5]
    · iexists _; isplitr; · ipureintro; exact harg5.read_unread _
      iexact H5
    iexists _; isplitr; · ipureintro; exact harg6.read_unread _
    iexact H6

end Cert.Kernel.Attn

end
-- ==== Proof.BitsFrame.lean ====
/-
  The attention region run over its whole grid.

  What the output tile's staging buffer and the two scratch buffers hold after each grid point is defined by
  recursion on the point: at the first tile of a batch row all three are what that tile's body stores; at a later
  tile the output is what the body stores when it reads the scratch buffers at what the point before left, and the
  scratch buffers are unchanged. With this as the proof data of the pipeline — the inputs' staging buffers at their
  blocks, the invariant the two scratch buffers at the recorded contents — the body's run at each point is the
  pipeline's obligation, and the launch gives the whole run: it terminates without a fault, the output array
  ends at the recorded tiles written back block by block, and the four argument arrays end as they began.
-/
import proofs.«158138_j30391188587331_2_alg».proof.Proof.BitsRuns

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores of each class cover their buffers -/

theorem coverO_first (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : firstTile i) (x0 : Vec F S1x2048x68 .f32) (x1 : Vec F S68x192 .f32) (y : S1x512x64.Idx) :
    ∃ pc ∈ (runFirst c i arg2 harg2 arg3 harg3 arg4 harg4 arg5 harg5 arg6 harg6 hc x0 x1).1, y ∈ pc.1.set :=
  View.cover_of_tiledL (runFirst c i arg2 harg2 arg3 harg3 arg4 harg4 arg5 harg5 arg6 harg6 hc x0 x1).1 S1x512x64.size (by sl_kernel_rfl) y
theorem coverK_first (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : firstTile i) (x0 : Vec F S1x2048x68 .f32) (x1 : Vec F S68x192 .f32) (y : S2048x64.Idx) :
    ∃ pc ∈ (runFirst c i arg2 harg2 arg3 harg3 arg4 harg4 arg5 harg5 arg6 harg6 hc x0 x1).2.1, y ∈ pc.1.set :=
  View.cover_of_tiledL (runFirst c i arg2 harg2 arg3 harg3 arg4 harg4 arg5 harg5 arg6 harg6 hc x0 x1).2.1 S2048x64.size (by sl_kernel_rfl) y
theorem coverV_first (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : firstTile i) (x0 : Vec F S1x2048x68 .f32) (x1 : Vec F S68x192 .f32) (y : S2048x64.Idx) :
    ∃ pc ∈ (runFirst c i arg2 harg2 arg3 harg3 arg4 harg4 arg5 harg5 arg6 harg6 hc x0 x1).2.2.1, y ∈ pc.1.set :=
  View.cover_of_tiledL (runFirst c i arg2 harg2 arg3 harg3 arg4 harg4 arg5 harg5 arg6 harg6 hc x0 x1).2.2.1 S2048x64.size (by sl_kernel_rfl) y
theorem coverO_later (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : ¬firstTile i) (x0 : Vec F S1x2048x68 .f32) (x1 : Vec F S68x192 .f32) (k0 v0 : Vec F S2048x64 .bf16) (y : S1x512x64.Idx) :
    ∃ pc ∈ (runLater c i arg2 harg2 arg3 harg3 arg4 harg4 arg5 harg5 arg6 harg6 hc x0 x1 k0 v0).1, y ∈ pc.1.set :=
  View.cover_of_tiledL (runLater c i arg2 harg2 arg3 harg3 arg4 harg4 arg5 harg5 arg6 harg6 hc x0 x1 k0 v0).1 S1x512x64.size (by sl_kernel_rfl) y

/-- What the first tile's body leaves in the output tile, the key scratch and the value scratch. -/
def outFirst (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : firstTile i) (x0 : Vec F S1x2048x68 .f32) (x1 : Vec F S68x192 .f32) : Vec F S1x512x64 .f32 :=
  oView.read (Elt F) (oView.writes (Elt F) oView.junk (runFirst c i arg2 harg2 arg3 harg3 arg4 harg4 arg5 harg5 arg6 harg6 hc x0 x1).1)
def keysFirst (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : firstTile i) (x0 : Vec F S1x2048x68 .f32) (x1 : Vec F S68x192 .f32) : Vec F S2048x64 .bf16 :=
  kView.read (Elt F) (kView.writes (Elt F) kView.junk (runFirst c i arg2 harg2 arg3 harg3 arg4 harg4 arg5 harg5 arg6 harg6 hc x0 x1).2.1)
def valsFirst (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : firstTile i) (x0 : Vec F S1x2048x68 .f32) (x1 : Vec F S68x192 .f32) : Vec F S2048x64 .bf16 :=
  vView.read (Elt F) (vView.writes (Elt F) vView.junk (runFirst c i arg2 harg2 arg3 harg3 arg4 harg4 arg5 harg5 arg6 harg6 hc x0 x1).2.2.1)
/-- What a later tile's body leaves in the output tile, reading the scratch buffers at `k0`, `v0`. -/
def outLater (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : ¬firstTile i) (x0 : Vec F S1x2048x68 .f32) (x1 : Vec F S68x192 .f32) (k0 v0 : Vec F S2048x64 .bf16) : Vec F S1x512x64 .f32 :=
  oView.read (Elt F) (oView.writes (Elt F) oView.junk (runLater c i arg2 harg2 arg3 harg3 arg4 harg4 arg5 harg5 arg6 harg6 hc x0 x1 k0 v0).1)

/-! ## Point by point -/

/-- After the body at position `n`: the output tile's staging buffer, the key scratch, the value scratch. -/
def tileAt (c : Dev nD) : (n : ℕ) → n < cfg0.N → Vec F S1x512x64 .f32 × Vec F S2048x64 .bf16 × Vec F S2048x64 .bf16
  | 0, hn => (outFirst c (grid0.coords ⟨0, hn⟩) (mx ⟨0, hn⟩) (hmx ⟨0, hn⟩) (mw ⟨0, hn⟩) (hmw ⟨0, hn⟩) (mo ⟨0, hn⟩) (hmo ⟨0, hn⟩) kM (Memref.isWhole_whole _) vM (Memref.isWhole_whole _) ((firstTile_iff ⟨0, hn⟩).mpr (Nat.zero_mod _)) (iblk m c 0 ⟨0, hn⟩) (iblk m c 1 ⟨0, hn⟩), keysFirst c (grid0.coords ⟨0, hn⟩) (mx ⟨0, hn⟩) (hmx ⟨0, hn⟩) (mw ⟨0, hn⟩) (hmw ⟨0, hn⟩) (mo ⟨0, hn⟩) (hmo ⟨0, hn⟩) kM (Memref.isWhole_whole _) vM (Memref.isWhole_whole _) ((firstTile_iff ⟨0, hn⟩).mpr (Nat.zero_mod _)) (iblk m c 0 ⟨0, hn⟩) (iblk m c 1 ⟨0, hn⟩), valsFirst c (grid0.coords ⟨0, hn⟩) (mx ⟨0, hn⟩) (hmx ⟨0, hn⟩) (mw ⟨0, hn⟩) (hmw ⟨0, hn⟩) (mo ⟨0, hn⟩) (hmo ⟨0, hn⟩) kM (Memref.isWhole_whole _) vM (Memref.isWhole_whole _) ((firstTile_iff ⟨0, hn⟩).mpr (Nat.zero_mod _)) (iblk m c 0 ⟨0, hn⟩) (iblk m c 1 ⟨0, hn⟩))
  | n + 1, hn =>
    if h0 : (n + 1) % 4 = 0 then
      (outFirst c (grid0.coords ⟨n + 1, hn⟩) (mx ⟨n + 1, hn⟩) (hmx ⟨n + 1, hn⟩) (mw ⟨n + 1, hn⟩) (hmw ⟨n + 1, hn⟩) (mo ⟨n + 1, hn⟩) (hmo ⟨n + 1, hn⟩) kM (Memref.isWhole_whole _) vM (Memref.isWhole_whole _) ((firstTile_iff ⟨n + 1, hn⟩).mpr h0) (iblk m c 0 ⟨n + 1, hn⟩) (iblk m c 1 ⟨n + 1, hn⟩), keysFirst c (grid0.coords ⟨n + 1, hn⟩) (mx ⟨n + 1, hn⟩) (hmx ⟨n + 1, hn⟩) (mw ⟨n + 1, hn⟩) (hmw ⟨n + 1, hn⟩) (mo ⟨n + 1, hn⟩) (hmo ⟨n + 1, hn⟩) kM (Memref.isWhole_whole _) vM (Memref.isWhole_whole _) ((firstTile_iff ⟨n + 1, hn⟩).mpr h0) (iblk m c 0 ⟨n + 1, hn⟩) (iblk m c 1 ⟨n + 1, hn⟩), valsFirst c (grid0.coords ⟨n + 1, hn⟩) (mx ⟨n + 1, hn⟩) (hmx ⟨n + 1, hn⟩) (mw ⟨n + 1, hn⟩) (hmw ⟨n + 1, hn⟩) (mo ⟨n + 1, hn⟩) (hmo ⟨n + 1, hn⟩) kM (Memref.isWhole_whole _) vM (Memref.isWhole_whole _) ((firstTile_iff ⟨n + 1, hn⟩).mpr h0) (iblk m c 0 ⟨n + 1, hn⟩) (iblk m c 1 ⟨n + 1, hn⟩))
    else
      (outLater c (grid0.coords ⟨n + 1, hn⟩) (mx ⟨n + 1, hn⟩) (hmx ⟨n + 1, hn⟩) (mw ⟨n + 1, hn⟩) (hmw ⟨n + 1, hn⟩) (mo ⟨n + 1, hn⟩) (hmo ⟨n + 1, hn⟩) kM (Memref.isWhole_whole _) vM (Memref.isWhole_whole _) (fun h => h0 ((firstTile_iff ⟨n + 1, hn⟩).mp h)) (iblk m c 0 ⟨n + 1, hn⟩) (iblk m c 1 ⟨n + 1, hn⟩) (tileAt c n (Nat.lt_of_succ_lt hn)).2.1 (tileAt c n (Nat.lt_of_succ_lt hn)).2.2, (tileAt c n (Nat.lt_of_succ_lt hn)).2.1, (tileAt c n (Nat.lt_of_succ_lt hn)).2.2)

theorem tileAt_first (c : Dev nD) (t : Fin cfg0.N) (h0 : t.val % 4 = 0) :
    tileAt m c t.val t.isLt = (outFirst c (grid0.coords t) (mx t) (hmx t) (mw t) (hmw t) (mo t) (hmo t) kM (Memref.isWhole_whole _) vM (Memref.isWhole_whole _) ((firstTile_iff t).mpr h0) (iblk m c 0 t) (iblk m c 1 t), keysFirst c (grid0.coords t) (mx t) (hmx t) (mw t) (hmw t) (mo t) (hmo t) kM (Memref.isWhole_whole _) vM (Memref.isWhole_whole _) ((firstTile_iff t).mpr h0) (iblk m c 0 t) (iblk m c 1 t), valsFirst c (grid0.coords t) (mx t) (hmx t) (mw t) (hmw t) (mo t) (hmo t) kM (Memref.isWhole_whole _) vM (Memref.isWhole_whole _) ((firstTile_iff t).mpr h0) (iblk m c 0 t) (iblk m c 1 t)) := by
  obtain ⟨n, hn⟩ := t
  cases n with
  | zero => exact rfl
  | succ n => exact (dif_pos h0).trans rfl

theorem tileAt_later (c : Dev nD) (t : Fin cfg0.N) (h0 : ¬t.val % 4 = 0) :
    tileAt m c t.val t.isLt = (outLater c (grid0.coords t) (mx t) (hmx t) (mw t) (hmw t) (mo t) (hmo t) kM (Memref.isWhole_whole _) vM (Memref.isWhole_whole _) (fun h => h0 ((firstTile_iff t).mp h)) (iblk m c 0 t) (iblk m c 1 t) (tileAt m c (t.val - 1) (Nat.lt_of_le_of_lt (Nat.sub_le _ _) t.isLt)).2.1 (tileAt m c (t.val - 1) (Nat.lt_of_le_of_lt (Nat.sub_le _ _) t.isLt)).2.2, (tileAt m c (t.val - 1) (Nat.lt_of_le_of_lt (Nat.sub_le _ _) t.isLt)).2.1, (tileAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region's invariant before position `n`: before the first point the two scratch buffers at anything; afterwards
    at what the point before left in them. The generator register is at some state throughout. -/
def PhiS (c : Dev nD) : (n : ℕ) → n ≤ cfg0.N → sProp 𝕄
  | 0, _ => Pipeline.ΦA spec0 c
  | n + 1, hn => iprop(iprop(owns (c : Thread nD τ) kM fullShare ((tileAt m c n hn).2.1) ∗ owns (c : Thread nD τ) vM fullShare ((tileAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) kM fullShare ((tileAt m c n hn).2.1) ∗ owns (c : Thread nD τ) vM fullShare ((tileAt m c n hn).2.2)) ∗ (∃ r, prngReg c r)) := rfl
theorem PhiS_pos (c : Dev nD) (n : ℕ) (h : n ≤ cfg0.N) (hz : n ≠ 0) :
    PhiS m c n h = iprop(iprop(owns (c : Thread nD τ) kM fullShare ((tileAt m c (n - 1) (by omega)).2.1) ∗ owns (c : Thread nD τ) vM fullShare ((tileAt m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (tileAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (tileAt m c t.val t.isLt).1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (mx t) fullShare ((dats m 0 c).before 0 t d))
    ∗ (∃ d, owns (c : Thread nD τ) (mw t) fullShare ((dats m 0 c).before 1 t d))
    ∗ (∃ d, owns (c : Thread nD τ) (mo t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (mx t) fullShare ((dats m 0 c).after 0 t) from by
    unfold Dat.leavesExact; rw [live0 t], after0]
  rw [show (dats m 0 c).leavesExact 1 t = owns (c : Thread nD τ) (mw t) fullShare ((dats m 0 c).after 1 t) from by
    unfold Dat.leavesExact; rw [live1 t], after1]
  rw [show (dats m 0 c).leavesExact 2 t = owns (c : Thread nD τ) (mo t) fullShare ((dats m 0 c).after 2 t) from by
    unfold Dat.leavesExact; rw [live2 t], after2]
  have hN : t.val < 64 := lt_of_lt_of_eq t.isLt (show cfg0.N = 64 from N_0)
  by_cases h0 : t.val % 4 = 0
  · rw [tileAt_first m c t h0]
    unfold outFirst keysFirst valsFirst; (try dsimp only)
    have hrun := (runFirst c (grid0.coords t) (mx t) (hmx t) (mw t) (hmw t) (mo t) (hmo t) kM (Memref.isWhole_whole _) vM (Memref.isWhole_whole _) ((firstTile_iff t).mpr h0) (iblk m c 0 t) (iblk m c 1 t)).2.2.2 Set.univ
    by_cases hz : t.val = 0
    · rw [PhiS_castSucc m c t, PhiS_zero m c _ _ hz, PhiA_eq]
      iintro ⟨⟨⟨HK, HV⟩, Hg⟩, Ho, ⟨%d0, H0⟩, ⟨%d1, H1⟩, ⟨%d2, H2⟩⟩
      iapply (hrun _)
      isplitl [H0]; · iexact H0
      isplitl [H1]; · iexact H1
      isplitl [H2]; · iexists _; iexact H2
      isplitl [HK]; · iexact HK
      isplitl [HV]; · iexact HV
      iintro ⟨H0, H1, ⟨%e2, H2⟩, ⟨%e5, HK⟩, ⟨%e6, HV⟩⟩
      isplitl [HK HV Hg]
      · isplitl [HK HV]
        · isplitl [HK]
          · unfold owns; iexists _; isplitr
            swap; · iexact HK
            ipureintro; exact View.read_writes_of_cover _ _ _ _ _ (coverK_first c _ _ _ _ _ _ _ _ _ _ _ _ _ _)
          · unfold owns; iexists _; isplitr
            swap; · iexact HV
            ipureintro; exact View.read_writes_of_cover _ _ _ _ _ (coverV_first c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverO_first c _ _ _ _ _ _ _ _ _ _ _ _ _ _)
    · rw [PhiS_castSucc m c t, PhiS_pos m c _ _ hz]
      iintro ⟨⟨⟨HK, HV⟩, Hg⟩, Ho, ⟨%d0, H0⟩, ⟨%d1, H1⟩, ⟨%d2, H2⟩⟩
      iapply (hrun _)
      isplitl [H0]; · iexact H0
      isplitl [H1]; · iexact H1
      isplitl [H2]; · iexists _; iexact H2
      isplitl [HK]; · iexists _; iexact HK
      isplitl [HV]; · iexists _; iexact HV
      iintro ⟨H0, H1, ⟨%e2, H2⟩, ⟨%e5, HK⟩, ⟨%e6, HV⟩⟩
      isplitl [HK HV Hg]
      · isplitl [HK HV]
        · isplitl [HK]
          · unfold owns; iexists _; isplitr
            swap; · iexact HK
            ipureintro; exact View.read_writes_of_cover _ _ _ _ _ (coverK_first c _ _ _ _ _ _ _ _ _ _ _ _ _ _)
          · unfold owns; iexists _; isplitr
            swap; · iexact HV
            ipureintro; exact View.read_writes_of_cover _ _ _ _ _ (coverV_first c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverO_first c _ _ _ _ _ _ _ _ _ _ _ _ _ _)
  · rw [tileAt_later m c t h0]
    unfold outLater; (try dsimp only)
    have hz : t.val ≠ 0 := fun h => h0 (by rw [h])
    rw [PhiS_castSucc m c t, PhiS_pos m c _ _ hz]
    iintro ⟨⟨⟨HK, HV⟩, Hg⟩, Ho, ⟨%d0, H0⟩, ⟨%d1, H1⟩, ⟨%d2, H2⟩⟩
    iapply ((runLater c (grid0.coords t) (mx t) (hmx t) (mw t) (hmw t) (mo t) (hmo t) kM (Memref.isWhole_whole _) vM (Memref.isWhole_whole _) (fun h => h0 ((firstTile_iff t).mp h)) (iblk m c 0 t) (iblk m c 1 t) _ _).2 Set.univ _)
    isplitl [H0]; · iexact H0
    isplitl [H1]; · iexact H1
    isplitl [H2]; · iexists _; iexact H2
    isplitl [HK]; · iexact HK
    isplitl [HV]; · iexact HV
    iintro ⟨H0, H1, ⟨%e2, H2⟩, HK, HV⟩
    isplitl [HK HV Hg]
    · isplitl [HK HV]
      · isplitl [HK]; · iexact HK
        iexact HV
      iexact Hg
    isplitl [Ho]; · iexact Ho
    isplitl [H0]; · iexact H0
    isplitl [H1]; · iexact H1
    unfold owns; iexists _; isplitr
    swap; · iexact H2
    ipureintro; exact View.read_writes_of_cover _ _ _ _ _ (coverO_later c _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨⟨HK, HV⟩, Hg⟩
  isplitl [HK HV]
  · isplitl [HK]; · iexists _; iexact HK
    iexists _; iexact HV
  iexact Hg

/-! ## The run -/

set_option backward.isDefEq.respectTransparency.types false in
/-- Every weakly fair execution of @main terminates without a fault; the windows' arrays end at what the proof data
    computes, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The four argument arrays end as they began: x is an input window's array, the three weight matrices bypass the
    region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).2 main_arg2 (Pipeline.mem_restRefs_of main_arg2 rfl (by decide))).trans (V_main_arg2 m c),
     ((h c).2 main_arg3 (Pipeline.mem_restRefs_of main_arg3 rfl (by decide))).trans (V_main_arg3 m c)⟩) (run_main m ρ)

end Cert.Kernel.Attn

end
-- ==== Proof.IdealBase.lean ====
/-
  The setting of the attention kernel's run: what the region finds in memory, and where its grid points branch.

  @main first lays the three weight matrices side by side (query columns 0–63, key columns 64–127, value columns
  128–191) and then launches the region on a 16 × 4 grid: coordinate 0 is the batch row, coordinate 1 the tile of
  512 query rows. The region's windows are the batch row of x (2048 × 68), the whole 68 × 192 weight matrix, and
  the 512 × 64 output tile. The body projects keys and values for the whole batch row into two scratch buffers
  when the tile coordinate is 0 and reuses them at tiles 1, 2, 3: so the grid points fall in two classes by
  their position modulo 4.
-/
import proofs.«158138_j30391188587331_2_alg».proof.Proof.Gen.KernelIdeal.Launch
import proofs.«158138_j30391188587331_2_alg».proof.Proof.Gen.KernelIdeal.Skeleton
import proofs.«158138_j30391188587331_2_alg».proof.Proof.Gen.KernelIdeal.Points
import proofs.«158138_j30391188587331_2_alg».proof.Proof.LibNary3
import Idealize.ShloMosaic.Lib.Pipeline.FrameBody
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Memory at the region's entry -/

/-- What each TensorCore buffer of core `c` holds when the region is entered: the initial memory with the
    concatenated weight matrix written. -/
abbrev V0 (c : Dev nD) : Valuation τ sig (Elt F) := StableHlo.after hostOps0 (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the concatenation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The concatenation writes its own result buffer only: the four argument arrays are as they were. -/
theorem V_main_arg0 (c : Dev nD) : V m c main_arg0 = m ((c : Thread nD τ).loc main_arg0) := by
  dsimp only [V, V0, hostOps0]; after_results3
theorem V_main_arg1 (c : Dev nD) : V m c main_arg1 = m ((c : Thread nD τ).loc main_arg1) := by
  dsimp only [V, V0, hostOps0]; after_results3
theorem V_main_arg2 (c : Dev nD) : V m c main_arg2 = m ((c : Thread nD τ).loc main_arg2) := by
  dsimp only [V, V0, hostOps0]; after_results3
theorem V_main_arg3 (c : Dev nD) : V m c main_arg3 = m ((c : Thread nD τ).loc main_arg3) := by
  dsimp only [V, V0, hostOps0]; after_results3

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the batch row of x holds that row at every point, whether the pipeline fetched it there
    (tile 0) or left it in place (tiles 1–3: the batch coordinate has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of the weights holds the whole weight matrix at every point (fetched once). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The tile coordinate is 0 exactly at the points ≡ 0 (mod 4) -/

/-- The body's test "this is the first tile of the batch row", as the body computes it from the grid coordinates. -/
abbrev firstTile (i : grid0.Coords) : Prop := (Scalar.cmpi .ne (Scalar.extui (Scalar.cmpi .eq (BitVec.ofNat 32 (i 1).val) 0#32)) 0#32) = 1#1
theorem firstTile_iff : ∀ t : Fin cfg0.N, firstTile (grid0.coords t) ↔ t.val % 4 = 0 :=
  (by decide +kernel : ∀ t : Fin grid0.N, firstTile (grid0.coords t) ↔ t.val % 4 = 0)

/-- No window is ever idle: the inputs are read and the output tile is stored whole at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-! ## The memrefs the body is called with -/

abbrev mx (t : Fin cfg0.N) : Memref sig .tc .vmem S1x2048x68 .f32 := win0_0.stage (cfg0.slots t 0)
abbrev hmx (t : Fin cfg0.N) : (mx t).IsWhole := hstage0_0 ((cfg0.slots t 0).cast nbuf0_0)
abbrev mw (t : Fin cfg0.N) : Memref sig .tc .vmem S68x192 .f32 := win0_1.stage (cfg0.slots t 1)
abbrev hmw (t : Fin cfg0.N) : (mw t).IsWhole := hstage0_1 ((cfg0.slots t 1).cast nbuf0_1)
abbrev mo (t : Fin cfg0.N) : Memref sig .tc .vmem S1x512x64 .f32 := win0_2.stage (cfg0.slots t 2)
abbrev hmo (t : Fin cfg0.N) : (mo t).IsWhole := hstage0_2 ((cfg0.slots t 2).cast nbuf0_2)
/-- The two scratch buffers: the projected keys and the projected values of the current batch row. -/
abbrev kM : Memref sig .tc .vmem S2048x64 .bf16 := Memref.whole cc0_scratch0
abbrev vM : Memref sig .tc .vmem S2048x64 .bf16 := Memref.whole cc0_scratch1
/-- Views through which the contents of the output tile and of the two scratch buffers are stated. -/
abbrev oView : View sig .tc .vmem S1x512x64 .f32 := (Memref.whole cc0_stg2_0 : Memref sig .tc .vmem S1x512x64 .f32).view
abbrev kView : View sig .tc .vmem S2048x64 .bf16 := kM.view
abbrev vView : View sig .tc .vmem S2048x64 .bf16 := vM.view

/-- What a body of this region may use beyond its windows: the two scratch buffers, each at some contents, and the
    generator register. -/
theorem PhiA_eq (c : Dev nD) :
    (Pipeline.ΦA spec0 c : sProp 𝕄)
      = iprop(iprop((∃ d, owns (c : Thread nD τ) kM fullShare d) ∗ (∃ d, owns (c : Thread nD τ) vM fullShare d)) ∗ (∃ r, prngReg c r)) := by
  unfold Pipeline.ΦA; rw [scopedRest0_eq]; simp only [kM, vM, owns_whole]; try rfl

end Cert.KernelIdeal.Attn

end
-- ==== Proof.IdealRuns.lean ====
/-
  The attention body run once, in each of its two classes of grid points.

  At the first tile of a batch row the body projects the row's keys and values (x·W_k and x·W_v over the whole
  2048 rows) into the two scratch buffers, whatever they held, and then computes its output tile from them; at
  the later tiles it reads the scratch buffers as the first tile left them and stores nothing into them. In both
  classes the output tile is stored whole. What is recorded here is, per class, the list of stores each buffer
  ends with, and that the body runs to its end from the buffers' contents without a fault.
-/
import proofs.«158138_j30391188587331_2_alg».proof.Proof.IdealBase

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The first tile of a batch row: the stores the output tile and the two scratch buffers end with, and the run. -/
noncomputable def runFirst (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : firstTile i)
    (x0 : Vec F S1x2048x68 .f32) (x1 : Vec F S68x192 .f32) :
    Σ' (LO : List (View.Piece (Elt F) S1x512x64 .f32)) (LK : List (View.Piece (Elt F) S2048x64 .bf16)), { LV : List (View.Piece (Elt F) S2048x64 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LK)
                ∗ (∃ f, arg6.view.loc (c : Thread nD τ) ↦[arg6.view.set]{fullShare} arg6.view.writes (Elt F) f LV)) -∗ K ⟨⟩))
          ⊢ wp frame (wpE (defs₀ (F := F)) Variants.none c none) E (cc0__fused_kernel i arg2 harg2 arg3 harg3 arg4 harg4 arg5 harg5 arg6 harg6) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%d2, %f2, -, H2⟩, ⟨%d5, %f5, -, H5⟩, ⟨%d6, %f6, -, H6⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H5]; · iexists _; iexact H5
    iexists _; iexact H6

set_option maxHeartbeats 1000000 in
/-- A later tile of a batch row: the scratch buffers are read at what they hold and handed back as they were;
    the stores the output tile ends with, and the run. -/
noncomputable def runLater (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : ¬firstTile i)
    (x0 : Vec F S1x2048x68 .f32) (x1 : Vec F S68x192 .f32) (k0 v0 : Vec F S2048x64 .bf16) :
    { LO : List (View.Piece (Elt F) S1x512x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare k0 ∗ owns (c : Thread nD τ) arg6 fullShare v0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ owns (c : Thread nD τ) arg5 fullShare k0 ∗ owns (c : Thread nD τ) arg6 fullShare v0) -∗ K ⟨⟩))
          ⊢ wp frame (wpE (defs₀ (F := F)) Variants.none c none) E (cc0__fused_kernel i arg2 harg2 arg3 harg3 arg4 harg4 arg5 harg5 arg6 harg6) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%d2, %f2, -, H2⟩, ⟨%f5, %hf5, H5⟩, ⟨%f6, %hf6, H6⟩, Hk⟩
    obtain rfl := harg2.eq_unread hf0; obtain rfl := harg3.eq_unread hf1
    obtain rfl := harg5.eq_unread hf5; obtain rfl := harg6.eq_unread hf6
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H5]
    · iexists _; isplitr; · ipureintro; exact harg5.read_unread _
      iexact H5
    iexists _; isplitr; · ipureintro; exact harg6.read_unread _
    iexact H6

end Cert.KernelIdeal.Attn

end
-- ==== Proof.IdealFrame.lean ====
/-
  The attention region run over its whole grid.

  What the output tile's staging buffer and the two scratch buffers hold after each grid point is defined by
  recursion on the point: at the first tile of a batch row all three are what that tile's body stores; at a later
  tile the output is what the body stores when it reads the scratch buffers at what the point before left, and the
  scratch buffers are unchanged. With this as the proof data of the pipeline — the inputs' staging buffers at their
  blocks, the invariant the two scratch buffers at the recorded contents — the body's run at each point is the
  pipeline's obligation, and the launch gives the whole run: it terminates without a fault, the output array
  ends at the recorded tiles written back block by block, and the four argument arrays end as they began.
-/
import proofs.«158138_j30391188587331_2_alg».proof.Proof.IdealRuns

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores of each class cover their buffers -/

theorem coverO_first (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : firstTile i) (x0 : Vec F S1x2048x68 .f32) (x1 : Vec F S68x192 .f32) (y : S1x512x64.Idx) :
    ∃ pc ∈ (runFirst c i arg2 harg2 arg3 harg3 arg4 harg4 arg5 harg5 arg6 harg6 hc x0 x1).1, y ∈ pc.1.set :=
  View.cover_of_tiledL (runFirst c i arg2 harg2 arg3 harg3 arg4 harg4 arg5 harg5 arg6 harg6 hc x0 x1).1 S1x512x64.size (by sl_kernel_rfl) y
theorem coverK_first (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : firstTile i) (x0 : Vec F S1x2048x68 .f32) (x1 : Vec F S68x192 .f32) (y : S2048x64.Idx) :
    ∃ pc ∈ (runFirst c i arg2 harg2 arg3 harg3 arg4 harg4 arg5 harg5 arg6 harg6 hc x0 x1).2.1, y ∈ pc.1.set :=
  View.cover_of_tiledL (runFirst c i arg2 harg2 arg3 harg3 arg4 harg4 arg5 harg5 arg6 harg6 hc x0 x1).2.1 S2048x64.size (by sl_kernel_rfl) y
theorem coverV_first (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : firstTile i) (x0 : Vec F S1x2048x68 .f32) (x1 : Vec F S68x192 .f32) (y : S2048x64.Idx) :
    ∃ pc ∈ (runFirst c i arg2 harg2 arg3 harg3 arg4 harg4 arg5 harg5 arg6 harg6 hc x0 x1).2.2.1, y ∈ pc.1.set :=
  View.cover_of_tiledL (runFirst c i arg2 harg2 arg3 harg3 arg4 harg4 arg5 harg5 arg6 harg6 hc x0 x1).2.2.1 S2048x64.size (by sl_kernel_rfl) y
theorem coverO_later (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : ¬firstTile i) (x0 : Vec F S1x2048x68 .f32) (x1 : Vec F S68x192 .f32) (k0 v0 : Vec F S2048x64 .bf16) (y : S1x512x64.Idx) :
    ∃ pc ∈ (runLater c i arg2 harg2 arg3 harg3 arg4 harg4 arg5 harg5 arg6 harg6 hc x0 x1 k0 v0).1, y ∈ pc.1.set :=
  View.cover_of_tiledL (runLater c i arg2 harg2 arg3 harg3 arg4 harg4 arg5 harg5 arg6 harg6 hc x0 x1 k0 v0).1 S1x512x64.size (by sl_kernel_rfl) y

/-- What the first tile's body leaves in the output tile, the key scratch and the value scratch. -/
def outFirst (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : firstTile i) (x0 : Vec F S1x2048x68 .f32) (x1 : Vec F S68x192 .f32) : Vec F S1x512x64 .f32 :=
  oView.read (Elt F) (oView.writes (Elt F) oView.junk (runFirst c i arg2 harg2 arg3 harg3 arg4 harg4 arg5 harg5 arg6 harg6 hc x0 x1).1)
def keysFirst (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : firstTile i) (x0 : Vec F S1x2048x68 .f32) (x1 : Vec F S68x192 .f32) : Vec F S2048x64 .bf16 :=
  kView.read (Elt F) (kView.writes (Elt F) kView.junk (runFirst c i arg2 harg2 arg3 harg3 arg4 harg4 arg5 harg5 arg6 harg6 hc x0 x1).2.1)
def valsFirst (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : firstTile i) (x0 : Vec F S1x2048x68 .f32) (x1 : Vec F S68x192 .f32) : Vec F S2048x64 .bf16 :=
  vView.read (Elt F) (vView.writes (Elt F) vView.junk (runFirst c i arg2 harg2 arg3 harg3 arg4 harg4 arg5 harg5 arg6 harg6 hc x0 x1).2.2.1)
/-- What a later tile's body leaves in the output tile, reading the scratch buffers at `k0`, `v0`. -/
def outLater (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : ¬firstTile i) (x0 : Vec F S1x2048x68 .f32) (x1 : Vec F S68x192 .f32) (k0 v0 : Vec F S2048x64 .bf16) : Vec F S1x512x64 .f32 :=
  oView.read (Elt F) (oView.writes (Elt F) oView.junk (runLater c i arg2 harg2 arg3 harg3 arg4 harg4 arg5 harg5 arg6 harg6 hc x0 x1 k0 v0).1)

/-! ## Point by point -/

/-- After the body at position `n`: the output tile's staging buffer, the key scratch, the value scratch. -/
def tileAt (c : Dev nD) : (n : ℕ) → n < cfg0.N → Vec F S1x512x64 .f32 × Vec F S2048x64 .bf16 × Vec F S2048x64 .bf16
  | 0, hn => (outFirst c (grid0.coords ⟨0, hn⟩) (mx ⟨0, hn⟩) (hmx ⟨0, hn⟩) (mw ⟨0, hn⟩) (hmw ⟨0, hn⟩) (mo ⟨0, hn⟩) (hmo ⟨0, hn⟩) kM (Memref.isWhole_whole _) vM (Memref.isWhole_whole _) ((firstTile_iff ⟨0, hn⟩).mpr (Nat.zero_mod _)) (iblk m c 0 ⟨0, hn⟩) (iblk m c 1 ⟨0, hn⟩), keysFirst c (grid0.coords ⟨0, hn⟩) (mx ⟨0, hn⟩) (hmx ⟨0, hn⟩) (mw ⟨0, hn⟩) (hmw ⟨0, hn⟩) (mo ⟨0, hn⟩) (hmo ⟨0, hn⟩) kM (Memref.isWhole_whole _) vM (Memref.isWhole_whole _) ((firstTile_iff ⟨0, hn⟩).mpr (Nat.zero_mod _)) (iblk m c 0 ⟨0, hn⟩) (iblk m c 1 ⟨0, hn⟩), valsFirst c (grid0.coords ⟨0, hn⟩) (mx ⟨0, hn⟩) (hmx ⟨0, hn⟩) (mw ⟨0, hn⟩) (hmw ⟨0, hn⟩) (mo ⟨0, hn⟩) (hmo ⟨0, hn⟩) kM (Memref.isWhole_whole _) vM (Memref.isWhole_whole _) ((firstTile_iff ⟨0, hn⟩).mpr (Nat.zero_mod _)) (iblk m c 0 ⟨0, hn⟩) (iblk m c 1 ⟨0, hn⟩))
  | n + 1, hn =>
    if h0 : (n + 1) % 4 = 0 then
      (outFirst c (grid0.coords ⟨n + 1, hn⟩) (mx ⟨n + 1, hn⟩) (hmx ⟨n + 1, hn⟩) (mw ⟨n + 1, hn⟩) (hmw ⟨n + 1, hn⟩) (mo ⟨n + 1, hn⟩) (hmo ⟨n + 1, hn⟩) kM (Memref.isWhole_whole _) vM (Memref.isWhole_whole _) ((firstTile_iff ⟨n + 1, hn⟩).mpr h0) (iblk m c 0 ⟨n + 1, hn⟩) (iblk m c 1 ⟨n + 1, hn⟩), keysFirst c (grid0.coords ⟨n + 1, hn⟩) (mx ⟨n + 1, hn⟩) (hmx ⟨n + 1, hn⟩) (mw ⟨n + 1, hn⟩) (hmw ⟨n + 1, hn⟩) (mo ⟨n + 1, hn⟩) (hmo ⟨n + 1, hn⟩) kM (Memref.isWhole_whole _) vM (Memref.isWhole_whole _) ((firstTile_iff ⟨n + 1, hn⟩).mpr h0) (iblk m c 0 ⟨n + 1, hn⟩) (iblk m c 1 ⟨n + 1, hn⟩), valsFirst c (grid0.coords ⟨n + 1, hn⟩) (mx ⟨n + 1, hn⟩) (hmx ⟨n + 1, hn⟩) (mw ⟨n + 1, hn⟩) (hmw ⟨n + 1, hn⟩) (mo ⟨n + 1, hn⟩) (hmo ⟨n + 1, hn⟩) kM (Memref.isWhole_whole _) vM (Memref.isWhole_whole _) ((firstTile_iff ⟨n + 1, hn⟩).mpr h0) (iblk m c 0 ⟨n + 1, hn⟩) (iblk m c 1 ⟨n + 1, hn⟩))
    else
      (outLater c (grid0.coords ⟨n + 1, hn⟩) (mx ⟨n + 1, hn⟩) (hmx ⟨n + 1, hn⟩) (mw ⟨n + 1, hn⟩) (hmw ⟨n + 1, hn⟩) (mo ⟨n + 1, hn⟩) (hmo ⟨n + 1, hn⟩) kM (Memref.isWhole_whole _) vM (Memref.isWhole_whole _) (fun h => h0 ((firstTile_iff ⟨n + 1, hn⟩).mp h)) (iblk m c 0 ⟨n + 1, hn⟩) (iblk m c 1 ⟨n + 1, hn⟩) (tileAt c n (Nat.lt_of_succ_lt hn)).2.1 (tileAt c n (Nat.lt_of_succ_lt hn)).2.2, (tileAt c n (Nat.lt_of_succ_lt hn)).2.1, (tileAt c n (Nat.lt_of_succ_lt hn)).2.2)

theorem tileAt_first (c : Dev nD) (t : Fin cfg0.N) (h0 : t.val % 4 = 0) :
    tileAt m c t.val t.isLt = (outFirst c (grid0.coords t) (mx t) (hmx t) (mw t) (hmw t) (mo t) (hmo t) kM (Memref.isWhole_whole _) vM (Memref.isWhole_whole _) ((firstTile_iff t).mpr h0) (iblk m c 0 t) (iblk m c 1 t), keysFirst c (grid0.coords t) (mx t) (hmx t) (mw t) (hmw t) (mo t) (hmo t) kM (Memref.isWhole_whole _) vM (Memref.isWhole_whole _) ((firstTile_iff t).mpr h0) (iblk m c 0 t) (iblk m c 1 t), valsFirst c (grid0.coords t) (mx t) (hmx t) (mw t) (hmw t) (mo t) (hmo t) kM (Memref.isWhole_whole _) vM (Memref.isWhole_whole _) ((firstTile_iff t).mpr h0) (iblk m c 0 t) (iblk m c 1 t)) := by
  obtain ⟨n, hn⟩ := t
  cases n with
  | zero => exact rfl
  | succ n => exact (dif_pos h0).trans rfl

theorem tileAt_later (c : Dev nD) (t : Fin cfg0.N) (h0 : ¬t.val % 4 = 0) :
    tileAt m c t.val t.isLt = (outLater c (grid0.coords t) (mx t) (hmx t) (mw t) (hmw t) (mo t) (hmo t) kM (Memref.isWhole_whole _) vM (Memref.isWhole_whole _) (fun h => h0 ((firstTile_iff t).mp h)) (iblk m c 0 t) (iblk m c 1 t) (tileAt m c (t.val - 1) (Nat.lt_of_le_of_lt (Nat.sub_le _ _) t.isLt)).2.1 (tileAt m c (t.val - 1) (Nat.lt_of_le_of_lt (Nat.sub_le _ _) t.isLt)).2.2, (tileAt m c (t.val - 1) (Nat.lt_of_le_of_lt (Nat.sub_le _ _) t.isLt)).2.1, (tileAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region's invariant before position `n`: before the first point the two scratch buffers at anything; afterwards
    at what the point before left in them. The generator register is at some state throughout. -/
def PhiS (c : Dev nD) : (n : ℕ) → n ≤ cfg0.N → sProp 𝕄
  | 0, _ => Pipeline.ΦA spec0 c
  | n + 1, hn => iprop(iprop(owns (c : Thread nD τ) kM fullShare ((tileAt m c n hn).2.1) ∗ owns (c : Thread nD τ) vM fullShare ((tileAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) kM fullShare ((tileAt m c n hn).2.1) ∗ owns (c : Thread nD τ) vM fullShare ((tileAt m c n hn).2.2)) ∗ (∃ r, prngReg c r)) := rfl
theorem PhiS_pos (c : Dev nD) (n : ℕ) (h : n ≤ cfg0.N) (hz : n ≠ 0) :
    PhiS m c n h = iprop(iprop(owns (c : Thread nD τ) kM fullShare ((tileAt m c (n - 1) (by omega)).2.1) ∗ owns (c : Thread nD τ) vM fullShare ((tileAt m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (tileAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (tileAt m c t.val t.isLt).1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (mx t) fullShare ((dats m 0 c).before 0 t d))
    ∗ (∃ d, owns (c : Thread nD τ) (mw t) fullShare ((dats m 0 c).before 1 t d))
    ∗ (∃ d, owns (c : Thread nD τ) (mo t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (mx t) fullShare ((dats m 0 c).after 0 t) from by
    unfold Dat.leavesExact; rw [live0 t], after0]
  rw [show (dats m 0 c).leavesExact 1 t = owns (c : Thread nD τ) (mw t) fullShare ((dats m 0 c).after 1 t) from by
    unfold Dat.leavesExact; rw [live1 t], after1]
  rw [show (dats m 0 c).leavesExact 2 t = owns (c : Thread nD τ) (mo t) fullShare ((dats m 0 c).after 2 t) from by
    unfold Dat.leavesExact; rw [live2 t], after2]
  have hN : t.val < 64 := lt_of_lt_of_eq t.isLt (show cfg0.N = 64 from N_0)
  by_cases h0 : t.val % 4 = 0
  · rw [tileAt_first m c t h0]
    unfold outFirst keysFirst valsFirst; (try dsimp only)
    have hrun := (runFirst c (grid0.coords t) (mx t) (hmx t) (mw t) (hmw t) (mo t) (hmo t) kM (Memref.isWhole_whole _) vM (Memref.isWhole_whole _) ((firstTile_iff t).mpr h0) (iblk m c 0 t) (iblk m c 1 t)).2.2.2 Set.univ
    by_cases hz : t.val = 0
    · rw [PhiS_castSucc m c t, PhiS_zero m c _ _ hz, PhiA_eq]
      iintro ⟨⟨⟨HK, HV⟩, Hg⟩, Ho, ⟨%d0, H0⟩, ⟨%d1, H1⟩, ⟨%d2, H2⟩⟩
      iapply (hrun _)
      isplitl [H0]; · iexact H0
      isplitl [H1]; · iexact H1
      isplitl [H2]; · iexists _; iexact H2
      isplitl [HK]; · iexact HK
      isplitl [HV]; · iexact HV
      iintro ⟨H0, H1, ⟨%e2, H2⟩, ⟨%e5, HK⟩, ⟨%e6, HV⟩⟩
      isplitl [HK HV Hg]
      · isplitl [HK HV]
        · isplitl [HK]
          · unfold owns; iexists _; isplitr
            swap; · iexact HK
            ipureintro; exact View.read_writes_of_cover _ _ _ _ _ (coverK_first c _ _ _ _ _ _ _ _ _ _ _ _ _ _)
          · unfold owns; iexists _; isplitr
            swap; · iexact HV
            ipureintro; exact View.read_writes_of_cover _ _ _ _ _ (coverV_first c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverO_first c _ _ _ _ _ _ _ _ _ _ _ _ _ _)
    · rw [PhiS_castSucc m c t, PhiS_pos m c _ _ hz]
      iintro ⟨⟨⟨HK, HV⟩, Hg⟩, Ho, ⟨%d0, H0⟩, ⟨%d1, H1⟩, ⟨%d2, H2⟩⟩
      iapply (hrun _)
      isplitl [H0]; · iexact H0
      isplitl [H1]; · iexact H1
      isplitl [H2]; · iexists _; iexact H2
      isplitl [HK]; · iexists _; iexact HK
      isplitl [HV]; · iexists _; iexact HV
      iintro ⟨H0, H1, ⟨%e2, H2⟩, ⟨%e5, HK⟩, ⟨%e6, HV⟩⟩
      isplitl [HK HV Hg]
      · isplitl [HK HV]
        · isplitl [HK]
          · unfold owns; iexists _; isplitr
            swap; · iexact HK
            ipureintro; exact View.read_writes_of_cover _ _ _ _ _ (coverK_first c _ _ _ _ _ _ _ _ _ _ _ _ _ _)
          · unfold owns; iexists _; isplitr
            swap; · iexact HV
            ipureintro; exact View.read_writes_of_cover _ _ _ _ _ (coverV_first c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverO_first c _ _ _ _ _ _ _ _ _ _ _ _ _ _)
  · rw [tileAt_later m c t h0]
    unfold outLater; (try dsimp only)
    have hz : t.val ≠ 0 := fun h => h0 (by rw [h])
    rw [PhiS_castSucc m c t, PhiS_pos m c _ _ hz]
    iintro ⟨⟨⟨HK, HV⟩, Hg⟩, Ho, ⟨%d0, H0⟩, ⟨%d1, H1⟩, ⟨%d2, H2⟩⟩
    iapply ((runLater c (grid0.coords t) (mx t) (hmx t) (mw t) (hmw t) (mo t) (hmo t) kM (Memref.isWhole_whole _) vM (Memref.isWhole_whole _) (fun h => h0 ((firstTile_iff t).mp h)) (iblk m c 0 t) (iblk m c 1 t) _ _).2 Set.univ _)
    isplitl [H0]; · iexact H0
    isplitl [H1]; · iexact H1
    isplitl [H2]; · iexists _; iexact H2
    isplitl [HK]; · iexact HK
    isplitl [HV]; · iexact HV
    iintro ⟨H0, H1, ⟨%e2, H2⟩, HK, HV⟩
    isplitl [HK HV Hg]
    · isplitl [HK HV]
      · isplitl [HK]; · iexact HK
        iexact HV
      iexact Hg
    isplitl [Ho]; · iexact Ho
    isplitl [H0]; · iexact H0
    isplitl [H1]; · iexact H1
    unfold owns; iexists _; isplitr
    swap; · iexact H2
    ipureintro; exact View.read_writes_of_cover _ _ _ _ _ (coverO_later c _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨⟨HK, HV⟩, Hg⟩
  isplitl [HK HV]
  · isplitl [HK]; · iexists _; iexact HK
    iexists _; iexact HV
  iexact Hg

/-! ## The run -/

set_option backward.isDefEq.respectTransparency.types false in
/-- Every weakly fair execution of @main terminates without a fault; the windows' arrays end at what the proof data
    computes, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The four argument arrays end as they began: x is an input window's array, the three weight matrices bypass the
    region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).2 main_arg2 (Pipeline.mem_restRefs_of main_arg2 rfl (by decide))).trans (V_main_arg2 m c),
     ((h c).2 main_arg3 (Pipeline.mem_restRefs_of main_arg3 rfl (by decide))).trans (V_main_arg3 m c)⟩) (run_main m ρ)

end Cert.KernelIdeal.Attn

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.IdealPayload.lean ====
/-
  The attention body's arithmetic read entry by entry, on the extended reals.

  Three things are computed from the blocks the body loads. The key and value projections are matrix products
  of the batch row of x (2048 × 68, read through its leading unit axis) with a 68 × 64 slice of the weights:
  entry (k, h) is ∑_c x(0,k,c)·w(c,h). The output tile, at row r and column h, is built from the query row
  (∑_c x(0,r,c)·w_q(c,·), times one eighth), its scores against the 2048 key rows, the row maximum, the
  exponentials of the scores less the maximum, their total, and the exponentials summed against the value rows
  and divided by the total. A change of float format is the identity here, so the casts to the narrow format drop out.
-/
import proofs.«158138_j30391188587331_2_alg».proof.Proof.Gen.KernelIdeal.Skeleton
import proofs.«158138_j30391188587331_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Attn

open Idealize.ShloMosaic Idealize.ShloMosaic.ValueIdx Cert.KernelIdeal Cert.KernelIdeal.Gen Keepdims

/-! ## The four matrix products, entry by entry -/

theorem dproj_l0 (j : S2048x64.Idx) (q : dot_S2048x68_S68x64_S2048x64_1_0_0_1_n_n.contr.Idx) : (dot_S2048x68_S68x64_S2048x64_1_0_0_1_n_n.lhsIdx j q 0).val = (j 0).val := by
  unfold DotDims.lhsIdx
  rw [dif_neg (show ¬(0 : Fin S2048x68.rank) ∈ dot_S2048x68_S68x64_S2048x64_1_0_0_1_n_n.lhsBatch by decide), dif_pos (show (0 : Fin S2048x68.rank) ∈ dot_S2048x68_S68x64_S2048x64_1_0_0_1_n_n.lhsNonContracting by decide)]
  rfl
theorem dproj_l1 (j : S2048x64.Idx) (q : dot_S2048x68_S68x64_S2048x64_1_0_0_1_n_n.contr.Idx) : (dot_S2048x68_S68x64_S2048x64_1_0_0_1_n_n.lhsIdx j q 1).val = (q ⟨0, by decide⟩).val :=
  dot_S2048x68_S68x64_S2048x64_1_0_0_1_n_n.lhsIdx_val_of_single rfl j q
theorem dproj_r0 (j : S2048x64.Idx) (q : dot_S2048x68_S68x64_S2048x64_1_0_0_1_n_n.contr.Idx) : (dot_S2048x68_S68x64_S2048x64_1_0_0_1_n_n.rhsIdx j q 0).val = (q ⟨0, by decide⟩).val :=
  dot_S2048x68_S68x64_S2048x64_1_0_0_1_n_n.rhsIdx_val_of_single rfl j q
theorem dproj_r1 (j : S2048x64.Idx) (q : dot_S2048x68_S68x64_S2048x64_1_0_0_1_n_n.contr.Idx) : (dot_S2048x68_S68x64_S2048x64_1_0_0_1_n_n.rhsIdx j q 1).val = (j 1).val := by
  unfold DotDims.rhsIdx
  rw [dif_neg (show ¬(1 : Fin S68x64.rank) ∈ dot_S2048x68_S68x64_S2048x64_1_0_0_1_n_n.rhsBatch by decide), dif_pos (show (1 : Fin S68x64.rank) ∈ dot_S2048x68_S68x64_S2048x64_1_0_0_1_n_n.rhsNonContracting by decide)]
  rfl
theorem mm_proj {φl φr : FTy} (l : FVec Ideal S2048x68 φl) (r : FVec Ideal S68x64 φr) (p : Fin 2048) (q : Fin 64) :
    matmul dot_S2048x68_S68x64_S2048x64_1_0_0_1_n_n none l r (constant S2048x64 .f32 0x00000000#32) (ix2 p q) = ∑ c : Fin 68, l (ix2 p c) * r (ix2 c q) := by
  simp only [matmul]
  rw [Ideal.matmul_constant_zero_apply, ← Equiv.sum_comp (ValueIdx.contrEquiv1 dot_S2048x68_S68x64_S2048x64_1_0_0_1_n_n 68 rfl rfl).symm]
  refine Finset.sum_congr rfl fun k _ => ?_
  have hk := ValueIdx.contrEquiv1_symm_val dot_S2048x68_S68x64_S2048x64_1_0_0_1_n_n 68 rfl rfl k
  have el : dot_S2048x68_S68x64_S2048x64_1_0_0_1_n_n.lhsIdx (ix2 p q) ((ValueIdx.contrEquiv1 dot_S2048x68_S68x64_S2048x64_1_0_0_1_n_n 68 rfl rfl).symm k) = ix2 p k := funext fun a => Fin.ext (by
    match a with
    | ⟨0, _⟩ => exact dproj_l0 _ _
    | ⟨1, _⟩ => exact (dproj_l1 _ _).trans hk)
  have er : dot_S2048x68_S68x64_S2048x64_1_0_0_1_n_n.rhsIdx (ix2 p q) ((ValueIdx.contrEquiv1 dot_S2048x68_S68x64_S2048x64_1_0_0_1_n_n 68 rfl rfl).symm k) = ix2 k q := funext fun a => Fin.ext (by
    match a with
    | ⟨0, _⟩ => exact (dproj_r0 _ _).trans hk
    | ⟨1, _⟩ => exact dproj_r1 _ _)
  rw [el, er]

theorem dquery_l0 (j : S512x64.Idx) (q : dot_S512x68_S68x64_S512x64_1_0_0_1_n_n.contr.Idx) : (dot_S512x68_S68x64_S512x64_1_0_0_1_n_n.lhsIdx j q 0).val = (j 0).val := by
  unfold DotDims.lhsIdx
  rw [dif_neg (show ¬(0 : Fin S512x68.rank) ∈ dot_S512x68_S68x64_S512x64_1_0_0_1_n_n.lhsBatch by decide), dif_pos (show (0 : Fin S512x68.rank) ∈ dot_S512x68_S68x64_S512x64_1_0_0_1_n_n.lhsNonContracting by decide)]
  rfl
theorem dquery_l1 (j : S512x64.Idx) (q : dot_S512x68_S68x64_S512x64_1_0_0_1_n_n.contr.Idx) : (dot_S512x68_S68x64_S512x64_1_0_0_1_n_n.lhsIdx j q 1).val = (q ⟨0, by decide⟩).val :=
  dot_S512x68_S68x64_S512x64_1_0_0_1_n_n.lhsIdx_val_of_single rfl j q
theorem dquery_r0 (j : S512x64.Idx) (q : dot_S512x68_S68x64_S512x64_1_0_0_1_n_n.contr.Idx) : (dot_S512x68_S68x64_S512x64_1_0_0_1_n_n.rhsIdx j q 0).val = (q ⟨0, by decide⟩).val :=
  dot_S512x68_S68x64_S512x64_1_0_0_1_n_n.rhsIdx_val_of_single rfl j q
theorem dquery_r1 (j : S512x64.Idx) (q : dot_S512x68_S68x64_S512x64_1_0_0_1_n_n.contr.Idx) : (dot_S512x68_S68x64_S512x64_1_0_0_1_n_n.rhsIdx j q 1).val = (j 1).val := by
  unfold DotDims.rhsIdx
  rw [dif_neg (show ¬(1 : Fin S68x64.rank) ∈ dot_S512x68_S68x64_S512x64_1_0_0_1_n_n.rhsBatch by decide), dif_pos (show (1 : Fin S68x64.rank) ∈ dot_S512x68_S68x64_S512x64_1_0_0_1_n_n.rhsNonContracting by decide)]
  rfl
theorem mm_query {φl φr : FTy} (l : FVec Ideal S512x68 φl) (r : FVec Ideal S68x64 φr) (p : Fin 512) (q : Fin 64) :
    matmul dot_S512x68_S68x64_S512x64_1_0_0_1_n_n none l r (constant S512x64 .f32 0x00000000#32) (ix2 p q) = ∑ c : Fin 68, l (ix2 p c) * r (ix2 c q) := by
  simp only [matmul]
  rw [Ideal.matmul_constant_zero_apply, ← Equiv.sum_comp (ValueIdx.contrEquiv1 dot_S512x68_S68x64_S512x64_1_0_0_1_n_n 68 rfl rfl).symm]
  refine Finset.sum_congr rfl fun k _ => ?_
  have hk := ValueIdx.contrEquiv1_symm_val dot_S512x68_S68x64_S512x64_1_0_0_1_n_n 68 rfl rfl k
  have el : dot_S512x68_S68x64_S512x64_1_0_0_1_n_n.lhsIdx (ix2 p q) ((ValueIdx.contrEquiv1 dot_S512x68_S68x64_S512x64_1_0_0_1_n_n 68 rfl rfl).symm k) = ix2 p k := funext fun a => Fin.ext (by
    match a with
    | ⟨0, _⟩ => exact dquery_l0 _ _
    | ⟨1, _⟩ => exact (dquery_l1 _ _).trans hk)
  have er : dot_S512x68_S68x64_S512x64_1_0_0_1_n_n.rhsIdx (ix2 p q) ((ValueIdx.contrEquiv1 dot_S512x68_S68x64_S512x64_1_0_0_1_n_n 68 rfl rfl).symm k) = ix2 k q := funext fun a => Fin.ext (by
    match a with
    | ⟨0, _⟩ => exact (dquery_r0 _ _).trans hk
    | ⟨1, _⟩ => exact dquery_r1 _ _)
  rw [el, er]

theorem dscore_l0 (j : S512x2048.Idx) (q : dot_S512x64_S2048x64_S512x2048_1_1_0_0_n_n.contr.Idx) : (dot_S512x64_S2048x64_S512x2048_1_1_0_0_n_n.lhsIdx j q 0).val = (j 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem dscore_l1 (j : S512x2048.Idx) (q : dot_S512x64_S2048x64_S512x2048_1_1_0_0_n_n.contr.Idx) : (dot_S512x64_S2048x64_S512x2048_1_1_0_0_n_n.lhsIdx j q 1).val = (q ⟨0, by decide⟩).val :=
  dot_S512x64_S2048x64_S512x2048_1_1_0_0_n_n.lhsIdx_val_of_single rfl j q
theorem dscore_r0 (j : S512x2048.Idx) (q : dot_S512x64_S2048x64_S512x2048_1_1_0_0_n_n.contr.Idx) : (dot_S512x64_S2048x64_S512x2048_1_1_0_0_n_n.rhsIdx j q 0).val = (j 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem dscore_r1 (j : S512x2048.Idx) (q : dot_S512x64_S2048x64_S512x2048_1_1_0_0_n_n.contr.Idx) : (dot_S512x64_S2048x64_S512x2048_1_1_0_0_n_n.rhsIdx j q 1).val = (q ⟨0, by decide⟩).val :=
  dot_S512x64_S2048x64_S512x2048_1_1_0_0_n_n.rhsIdx_val_of_single rfl j q
theorem mm_scores {φl φr : FTy} (l : FVec Ideal S512x64 φl) (r : FVec Ideal S2048x64 φr) (p : Fin 512) (q : Fin 2048) :
    matmul dot_S512x64_S2048x64_S512x2048_1_1_0_0_n_n none l r (constant S512x2048 .f32 0x00000000#32) (ix2 p q) = ∑ c : Fin 64, l (ix2 p c) * r (ix2 q c) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun k _ => ?_
  have hk := ValueIdx.contrEquiv1_symm_val dot_S512x64_S2048x64_S512x2048_1_1_0_0_n_n 64 rfl rfl k
  have el : dot_S512x64_S2048x64_S512x2048_1_1_0_0_n_n.lhsIdx (ix2 p q) ((ValueIdx.contrEquiv1 dot_S512x64_S2048x64_S512x2048_1_1_0_0_n_n 64 rfl rfl).symm k) = ix2 p k := funext fun a => Fin.ext (by
    match a with
    | ⟨0, _⟩ => exact dscore_l0 _ _
    | ⟨1, _⟩ => exact (dscore_l1 _ _).trans hk)
  have er : dot_S512x64_S2048x64_S512x2048_1_1_0_0_n_n.rhsIdx (ix2 p q) ((ValueIdx.contrEquiv1 dot_S512x64_S2048x64_S512x2048_1_1_0_0_n_n 64 rfl rfl).symm k) = ix2 q k := funext fun a => Fin.ext (by
    match a with
    | ⟨0, _⟩ => exact dscore_r0 _ _
    | ⟨1, _⟩ => exact (dscore_r1 _ _).trans hk)
  rw [el, er]

theorem dread_l0 (j : S512x64.Idx) (q : dot_S512x2048_S2048x64_S512x64_1_0_0_1_n_n.contr.Idx) : (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem dread_l1 (j : S512x64.Idx) (q : dot_S512x2048_S2048x64_S512x64_1_0_0_1_n_n.contr.Idx) : (dot_S512x2048_S2048x64_S512x64_1_0_0_1_n_n.lhsIdx j q 1).val = (q ⟨0, by decide⟩).val :=
  dot_S512x2048_S2048x64_S512x64_1_0_0_1_n_n.lhsIdx_val_of_single rfl j q
theorem dread_r0 (j : S512x64.Idx) (q : dot_S512x2048_S2048x64_S512x64_1_0_0_1_n_n.contr.Idx) : (dot_S512x2048_S2048x64_S512x64_1_0_0_1_n_n.rhsIdx j q 0).val = (q ⟨0, by decide⟩).val :=
  dot_S512x2048_S2048x64_S512x64_1_0_0_1_n_n.rhsIdx_val_of_single rfl j q
theorem dread_r1 (j : S512x64.Idx) (q : dot_S512x2048_S2048x64_S512x64_1_0_0_1_n_n.contr.Idx) : (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl
theorem mm_read {φl φr : FTy} (l : FVec Ideal S512x2048 φl) (r : FVec Ideal S2048x64 φr) (p : Fin 512) (q : Fin 64) :
    matmul dot_S512x2048_S2048x64_S512x64_1_0_0_1_n_n none l r (constant S512x64 .f32 0x00000000#32) (ix2 p q) = ∑ c : Fin 2048, l (ix2 p c) * r (ix2 c q) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 p q) ((ValueIdx.contrEquiv1 dot_S512x2048_S2048x64_S512x64_1_0_0_1_n_n 2048 rfl rfl).symm k) = ix2 p k := funext fun a => Fin.ext (by
    match a with
    | ⟨0, _⟩ => exact dread_l0 _ _
    | ⟨1, _⟩ => exact (dread_l1 _ _).trans hk)
  have er : dot_S512x2048_S2048x64_S512x64_1_0_0_1_n_n.rhsIdx (ix2 p q) ((ValueIdx.contrEquiv1 dot_S512x2048_S2048x64_S512x64_1_0_0_1_n_n 2048 rfl rfl).symm k) = ix2 k q := funext fun a => Fin.ext (by
    match a with
    | ⟨0, _⟩ => exact (dread_r0 _ _).trans hk
    | ⟨1, _⟩ => exact dread_r1 _ _)
  rw [el, er]

/-! ## The projections -/

theorem keys_apply (v33 : Vec Ideal S1x2048x68 .f32) (v36 : Vec Ideal S68x64 .f32) (k : Fin 2048) (h : Fin 64) :
    k0_pay2 (F := Ideal) v33 v36 (ix2 k h) = ∑ c : Fin 68, v33 (ix3 (0 : Fin 1) k c) * v36 (ix2 c h) := by
  unfold k0_pay2 k0_pay1
  simp only [shapeCast_self]
  refine (mm_proj _ _ k h).trans (Finset.sum_congr rfl fun c _ => ?_)
  show shapeCast S2048x68 v33 _ (ix2 k c) * v36 (ix2 c h) = _
  rw [shapeCast_1ab_ab_apply]

theorem vals_apply (v33 : Vec Ideal S1x2048x68 .f32) (v39 : Vec Ideal S68x64 .f32) (k : Fin 2048) (h : Fin 64) :
    k0_pay3 (F := Ideal) v33 v39 (ix2 k h) = ∑ c : Fin 68, v33 (ix3 (0 : Fin 1) k c) * v39 (ix2 c h) := by
  unfold k0_pay3 k0_pay1
  simp only [shapeCast_self]
  refine (mm_proj _ _ k h).trans (Finset.sum_congr rfl fun c _ => ?_)
  show shapeCast S2048x68 v33 _ (ix2 k c) * v39 (ix2 c h) = _
  rw [shapeCast_1ab_ab_apply]

/-! ## The output tile -/

/-- The score of tile row r against key row j: the query row, scaled by the constant the body spells, against the key. -/
def score (v6 : Vec Ideal S1x512x68 .f32) (v9 : Vec Ideal S68x64 .f32) (v16 : FVec Ideal S2048x64 .bf16) (r : Fin 512) (j : Fin 2048) : EReal :=
  ∑ h' : Fin 64, ((∑ c : Fin 68, v6 (ix3 (0 : Fin 1) r c) * v9 (ix2 c h')) * Ideal.ofBits .f32 0x3E000000#32) * v16 (ix2 j h')

/-- The row's maximum score. -/
def rowMax (v6 : Vec Ideal S1x512x68 .f32) (v9 : Vec Ideal S68x64 .f32) (v16 : FVec Ideal S2048x64 .bf16) (r : Fin 512) : EReal :=
  (Finset.univ : Finset (Fin 2048)).fold max (Ideal.ofBits .f32 0xFF800000#32) (fun j => score v6 v9 v16 r j)

/-- The score matrix as the body builds it. -/
def scoreMat (v6 : Vec Ideal S1x512x68 .f32) (v9 : Vec Ideal S68x64 .f32) (v16 : FVec Ideal S2048x64 .bf16) : FVec Ideal S512x2048 .f32 :=
  matmul dot_S512x64_S2048x64_S512x2048_1_1_0_0_n_n none
    (truncf .bf16 (mulf (matmul dot_S512x68_S68x64_S512x64_1_0_0_1_n_n none
        (truncf .bf16 (shapeCast S512x68 v6 shapeCasts_S1x512x68_S512x68) bitsLt_bf16_f32) (truncf .bf16 v9 bitsLt_bf16_f32)
        (constant S512x64 .f32 0x00000000#32))
      (broadcast S512x64 (Scalar.ofBits .f32 0x3E000000#32))) bitsLt_bf16_f32)
    v16 (constant S512x2048 .f32 0x00000000#32)

theorem scoreMat_apply (v6 : Vec Ideal S1x512x68 .f32) (v9 : Vec Ideal S68x64 .f32) (v16 : FVec Ideal S2048x64 .bf16) (r : Fin 512) (j : Fin 2048) :
    scoreMat v6 v9 v16 (ix2 r j) = score v6 v9 v16 r j := by
  unfold scoreMat score
  refine (mm_scores _ _ r j).trans (Finset.sum_congr rfl fun h' _ => ?_)
  show (matmul dot_S512x68_S68x64_S512x64_1_0_0_1_n_n none (truncf .bf16 (shapeCast S512x68 v6 shapeCasts_S1x512x68_S512x68) bitsLt_bf16_f32)
      (truncf .bf16 v9 bitsLt_bf16_f32) (constant S512x64 .f32 0x00000000#32) (ix2 r h') * Ideal.ofBits .f32 0x3E000000#32) * v16 (ix2 j h') = _
  rw [mm_query]
  refine congrArg (fun s => s * Ideal.ofBits .f32 0x3E000000#32 * v16 (ix2 j h')) (Finset.sum_congr rfl fun c _ => ?_)
  show shapeCast S512x68 v6 _ (ix2 r c) * v9 (ix2 c h') = _
  rw [shapeCast_1ab_ab_apply]

/-- The row maximum as the body takes it: the lane reduction of the score matrix from −∞. -/
theorem rowMax_apply (v6 : Vec Ideal S1x512x68 .f32) (v9 : Vec Ideal S68x64 .f32) (v16 : FVec Ideal S2048x64 .bf16) (r : Fin 512)
    (hφ : FKind.Formats .f32) (hacc : (0xFF800000#32 : BitVec 32) = FKind.maximumf.neutral .f32 hφ) :
    multiReduction (F := Ideal) .maximumf [1] S512 (scoreMat v6 v9 v16) 0xFF800000#32 reduces_S512x2048_S512 hφ hacc (ix1 r) = rowMax v6 v9 v16 r := by
  rw [Ideal.multiReduction_maximumf_single]
  have hf : (scoreMat v6 v9 v16 ∘ reduces_S512x2048_S512.lift (ix1 r)) = fun j : Fin 2048 => score v6 v9 v16 r j :=
    funext fun j => (congrArg _ (lift_lane reduces_S512x2048_S512 r j)).trans (scoreMat_apply v6 v9 v16 r _)
  rw [hf]; rfl

/-- The exponentials of the scores less the row maximum, as the body builds them. -/
def expMat (v6 : Vec Ideal S1x512x68 .f32) (v9 : Vec Ideal S68x64 .f32) (v16 : FVec Ideal S2048x64 .bf16)
    (hφ : FKind.Formats .f32) (hacc : (0xFF800000#32 : BitVec 32) = FKind.maximumf.neutral .f32 hφ) : FVec Ideal S512x2048 .f32 :=
  exp (subf (scoreMat v6 v9 v16)
    (broadcastTo S512x2048 (shapeCast S512x1
      (multiReduction .maximumf [1] S512 (scoreMat v6 v9 v16) 0xFF800000#32 reduces_S512x2048_S512 hφ hacc) shapeCasts_S512_S512x1)
      broadcasts_S512x1_S512x2048))

theorem expMat_apply (v6 : Vec Ideal S1x512x68 .f32) (v9 : Vec Ideal S68x64 .f32) (v16 : FVec Ideal S2048x64 .bf16)
    (hφ : FKind.Formats .f32) (hacc : (0xFF800000#32 : BitVec 32) = FKind.maximumf.neutral .f32 hφ) (r : Fin 512) (j : Fin 2048) :
    expMat v6 v9 v16 hφ hacc (ix2 r j) = Ideal.exp (score v6 v9 v16 r j - rowMax v6 v9 v16 r) := by
  unfold expMat
  show Ideal.exp (scoreMat v6 v9 v16 (ix2 r j) - broadcastTo S512x2048 _ broadcasts_S512x1_S512x2048 (ix2 r j)) = _
  rw [scoreMat_apply, broadcastTo_a1_ab_apply, shapeCast_a_a1_apply, rowMax_apply]

/-- The lane sum of a [512, 2048] array at row p is the sum over k of its entries (p, k). -/
theorem laneSum_row (src : FVec Ideal S512x2048 .f32) (hφ : FKind.Formats .f32)
    (hacc : (0x00000000#32 : BitVec 32) = FKind.add.neutral .f32 hφ) (p : Fin 512) :
    multiReduction (F := Ideal) .add [1] S512 src 0x00000000#32 reduces_S512x2048_S512 hφ hacc (ix1 p) = ∑ k : Fin 2048, src (ix2 p k) := by
  refine (Ideal.multiReduction_add_single src 0x00000000#32 reduces_S512x2048_S512 hφ hacc (ix1 p)).trans ?_
  exact Finset.sum_congr rfl fun k _ => congrArg src (lift_lane reduces_S512x2048_S512 p k)

theorem tile_core (v6 : Vec Ideal S1x512x68 .f32) (v9 : Vec Ideal S68x64 .f32) (v16 v17 : FVec Ideal S2048x64 .bf16)
    (hφ : FKind.Formats .f32) (hmax : (0xFF800000#32 : BitVec 32) = FKind.maximumf.neutral .f32 hφ)
    (hadd : (0x00000000#32 : BitVec 32) = FKind.add.neutral .f32 hφ) (r : Fin 512) (h : Fin 64) :
    divf (matmul dot_S512x2048_S2048x64_S512x64_1_0_0_1_n_n none (truncf .bf16 (expMat v6 v9 v16 hφ hmax) bitsLt_bf16_f32) v17
        (constant S512x64 .f32 0x00000000#32))
      (broadcastTo S512x64 (shapeCast S512x1
        (multiReduction .add [1] S512 (expMat v6 v9 v16 hφ hmax) 0x00000000#32 reduces_S512x2048_S512 hφ hadd) shapeCasts_S512_S512x1)
        broadcasts_S512x1_S512x64) (ix2 r h)
      = Ideal.div (∑ j : Fin 2048, Ideal.exp (score v6 v9 v16 r j - rowMax v6 v9 v16 r) * v17 (ix2 j h))
          (∑ j : Fin 2048, Ideal.exp (score v6 v9 v16 r j - rowMax v6 v9 v16 r)) := by
  rw [divf_apply, mm_read, broadcastTo_a1_ab_apply, shapeCast_a_a1_apply, laneSum_row]
  simp only [truncf_apply, expMat_apply]

theorem tile_apply (v6 : Vec Ideal S1x512x68 .f32) (v9 : Vec Ideal S68x64 .f32) (v16 v17 : FVec Ideal S2048x64 .bf16) (u : Fin 1) (r : Fin 512) (h : Fin 64) :
    k0_pay4 (F := Ideal) v6 v9 v16 v17 (ix3 u r h)
      = Ideal.div (∑ j : Fin 2048, Ideal.exp (score v6 v9 v16 r j - rowMax v6 v9 v16 r) * v17 (ix2 j h))
          (∑ j : Fin 2048, Ideal.exp (score v6 v9 v16 r j - rowMax v6 v9 v16 r)) := by
  unfold k0_pay4
  simp only [shapeCast_self]
  rw [shapeCast_ab_1ab_apply]
  exact tile_core v6 v9 v16 v17 _ _ _ r h

end Cert.KernelIdeal.Attn

end
-- ==== Proof.LibRowSoftmax.lean ====
/-
  A row of softmax weights against a memory bank, in two arrangements, on the extended reals at real entries.

  Fix a query row `h`, a memory bank `K` (rows `K m`), scores `s m` and positive weights `t m = exp (s m)`.
    • arrangement W ("weighted"): `(h j · (1 / ∑ m, t m)) · ∑ m, t m · K m j` — normalise once, outside the sum;
    • arrangement S ("softRead"): `h j · ∑ m, (exp (s m - c) / ∑ m', exp (s m' - c)) · K m j` — the softmax with
      a shift `c` subtracted from every score (any real `c`; a row maximum in practice), each weight normalised.
  Over the reals the two agree: `exp (s - c) = exp s / exp c`, the factor `exp c` cancels in every quotient, and
  `1 / ∑ t` distributes over the finite sum. With `t m = 1 / exp (s m) = exp (-s m)` the same holds for the scores
  `-s`. On the extended reals this is stated at entries that are images of reals, where every operation is
  the image of the real one (the total of the weights is positive, so no quotient meets a zero divisor).

  Also: the running maximum of finitely many reals, started from a value below `⊤`, is a real as soon as there
  is at least one of them.
-/
import Idealize.ShloMosaic.PureOps.Ideal

noncomputable section

namespace RowSoftmax

open Finset Idealize.ShloMosaic

/-- The image in the extended reals of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero, computed on the extended reals. -/
theorem div_coe_coe (x y : ℝ) (hy : y ≠ 0) : Ideal.div (x : EReal) (y : EReal) = ((x / y : ℝ) : EReal) := by
  rw [Ideal.div_coe hy, ← EReal.coe_mul, mul_one_div]

variable {M H : Type*} [Fintype M] [Fintype H]

/-- Over the reals: normalising once outside the sum is the shifted softmax read against the bank. -/
theorem weighted_real [Nonempty M] (h c : ℝ) (t s k : M → ℝ) (ht : ∀ m, t m = Real.exp (s m)) :
    (h * (1 / ∑ m, t m)) * ∑ m, t m * k m
      = h * ∑ m, (Real.exp (s m - c) / ∑ m', Real.exp (s m' - c)) * k m := by
  have e1 : ∀ m, Real.exp (s m - c) = t m / Real.exp c := fun m => by rw [Real.exp_sub, ht]
  simp only [e1]
  rw [← Finset.sum_div]
  have e2 : ∀ m, t m / Real.exp c / ((∑ m', t m') / Real.exp c) = t m / ∑ m', t m' := fun m =>
    div_div_div_cancel_right₀ (Real.exp_ne_zero c) _ _
  simp only [e2]
  rw [mul_assoc, Finset.mul_sum]
  exact congrArg (h * ·) (Finset.sum_congr rfl fun m _ => by ring)

/-- Arrangement W on the extended reals: the weights `t` normalised once, outside the sum over the bank. -/
def weighted (h : H → EReal) (t : M → EReal) (K : M → H → EReal) : H → EReal :=
  fun j => (h j * Ideal.div 1 (∑ m, t m)) * ∑ m, t m * K m j

/-- Arrangement S on the extended reals: the softmax of the scores `s` shifted by `c`, read against the bank. -/
def softRead (h : H → EReal) (s : M → EReal) (c : EReal) (K : M → H → EReal) : H → EReal :=
  fun j => h j * ∑ m, Ideal.div (Ideal.exp (s m - c)) (∑ m', Ideal.exp (s m' - c)) * K m j

theorem sum_exp_ne_zero [Nonempty M] (s : M → ℝ) : (∑ m, Real.exp (s m)) ≠ 0 :=
  ne_of_gt (Finset.sum_pos (fun m _ => Real.exp_pos _) Finset.univ_nonempty)

/-- With weights `exp s`: arrangement W is arrangement S of the scores `s`, at real entries and any real shift. -/
theorem weighted_exp_eq_softRead [Nonempty M] (h : H → ℝ) (s : M → ℝ) (c : ℝ) (K : M → H → ℝ) :
    weighted (fun j => (h j : EReal)) (fun m => Ideal.exp (s m : EReal)) (fun m j => (K m j : EReal))
      = softRead (fun j => (h j : EReal)) (fun m => (s m : EReal)) (c : EReal) (fun m j => (K m j : EReal)) := by
  funext j
  unfold weighted softRead
  simp only [Ideal.exp_coe, ← EReal.coe_sub, ← coe_sum]
  rw [← EReal.coe_one, div_coe_coe _ _ (sum_exp_ne_zero s)]
  simp only [div_coe_coe _ _ (sum_exp_ne_zero fun m => s m - c), ← EReal.coe_mul, ← coe_sum]
  exact congrArg _ (weighted_real (h j) c (fun m => Real.exp (s m)) s (fun m => K m j) fun _ => rfl)

/-- With weights `1 / exp s`: arrangement W is arrangement S of the scores `-s`. -/
theorem weighted_inv_exp_eq_softRead [Nonempty M] (h : H → ℝ) (s : M → ℝ) (c : ℝ) (K : M → H → ℝ) :
    weighted (fun j => (h j : EReal)) (fun m => Ideal.div 1 (Ideal.exp (s m : EReal))) (fun m j => (K m j : EReal))
      = softRead (fun j => (h j : EReal)) (fun m => ((-(s m) : ℝ) : EReal)) (c : EReal) (fun m j => (K m j : EReal)) := by
  have e : ∀ m, Ideal.div 1 (Ideal.exp (s m : EReal)) = Ideal.exp ((-(s m) : ℝ) : EReal) := fun m => by
    rw [Ideal.exp_coe, Ideal.exp_coe, ← EReal.coe_one, div_coe_coe _ _ (Real.exp_ne_zero _), Real.exp_neg, one_div]
  simp only [e]
  exact weighted_exp_eq_softRead h (fun m => -(s m)) c K

/-- The running maximum of `n ≥ 1` reals from a start below `⊤`, joined once more with a value below `⊤`, is a real. -/
theorem max_fold_max_real {n : ℕ} (hn : 0 < n) (b b' : EReal) (hb : b ≠ ⊤) (hb' : b' ≠ ⊤) (f : Fin n → ℝ) :
    ∃ c : ℝ, max b' ((Finset.univ : Finset (Fin n)).fold max b fun k => (f k : EReal)) = (c : EReal) := by
  set v := max b' ((Finset.univ : Finset (Fin n)).fold max b fun k => (f k : EReal)) with hv
  have htop : v ≠ ⊤ := by
    apply ne_of_lt
    rw [hv, max_lt_iff, Finset.fold_max_lt]
    exact ⟨lt_top_iff_ne_top.mpr hb', lt_top_iff_ne_top.mpr hb, fun k _ => EReal.coe_lt_top _⟩
  have hbot : v ≠ ⊥ := by
    apply ne_of_gt
    rw [hv, lt_max_iff, Finset.lt_fold_max]
    exact Or.inr (Or.inr ⟨⟨0, hn⟩, Finset.mem_univ _, EReal.bot_lt_coe _⟩)
  exact ⟨v.toReal, (EReal.coe_toReal htop hbot).symm⟩

end RowSoftmax

end
-- ==== Proof.LibAttnRow.lean ====
/-
  Single-head attention over one query row, in two arrangements, on the extended reals at real entries.

  Fix a query row q (H entries), n ≥ 1 key rows k j and value rows v j, and a real scale c.
    • first arrangement: the scale is folded into the query, score j is ∑ₕ (q h · c) · k j h; the weights
      exp(score j − max score) are summed against the values FIRST and the total is divided once by the sum
      of the weights;
    • second arrangement: score j is (∑ₕ q h · k j h) · c, the maximum is joined once more with −∞, every
      weight is divided by 0 + the sum of the weights, and the normalised weights are summed against the values.
  Over the reals the scores agree (c moves across the finite sum), so do the maxima (−∞ is neutral for max),
  and dividing a finite sum by a non-zero total is dividing each term: the two arrangements are one number.
  The total of the weights is a sum of n ≥ 1 exponentials, so it is positive and no quotient meets a zero.
  Also here: the values of the float constants both programs spell.
-/
import Idealize.ShloMosaic.PureOps.Ideal
import Idealize.ShloMosaic.PureOps.Ideal.Laws
import proofs.«158138_j30391188587331_2_alg».proof.Proof.LibRowSoftmax

noncomputable section

namespace AttnLaw

open Finset Idealize.ShloMosaic RowSoftmax

/-! ## The constants -/

/-- The pattern 0x3E000000 is one eighth. -/
theorem ofBits_eighth : Ideal.ofBits .f32 0x3E000000#32 = ((1 / 8 : ℝ) : EReal) := by
  simp [Ideal.ofBits, Ideal.ieee, -EReal.coe_mul]; norm_num
/-- The pattern 0x42800000 is 64. -/
theorem ofBits_64 : Ideal.ofBits .f32 0x42800000#32 = ((64 : ℝ) : EReal) := by
  simp [Ideal.ofBits, Ideal.ieee, -EReal.coe_mul]; norm_num
/-- The pattern 0x3F800000 is 1. -/
theorem ofBits_one : Ideal.ofBits .f32 0x3F800000#32 = ((1 : ℝ) : EReal) := by
  simp [Ideal.ofBits, Ideal.ieee, -EReal.coe_mul]; norm_num
/-- The pattern 0xFF800000 is −∞. -/
theorem ofBits_neg_inf : Ideal.ofBits .f32 0xFF800000#32 = ⊥ := by
  simp [Ideal.ofBits, Ideal.ieee]

/-- One over the square root of 64 is one eighth: 64 = 8². -/
theorem inv_sqrt_64 : Ideal.div ((1 : ℝ) : EReal) (Ideal.sqrt ((64 : ℝ) : EReal)) = ((1 / 8 : ℝ) : EReal) := by
  have h8 : Real.sqrt 64 = 8 := by
    rw [show (64 : ℝ) = 8 ^ 2 by norm_num]; exact Real.sqrt_sq (by norm_num)
  rw [Ideal.sqrt_coe, if_neg (by norm_num), h8, div_coe_coe _ _ (by norm_num)]

/-! ## Sums of products of reals -/

variable {H C : Type} [Fintype H] [Fintype C] {n : ℕ}

/-- A finite sum of products of reals, computed on the extended reals. -/
theorem coe_dot (a b : C → ℝ) : ∑ c, (a c : EReal) * (b c : EReal) = ((∑ c, a c * b c : ℝ) : EReal) := by
  rw [coe_sum]; exact Finset.sum_congr rfl fun c _ => (EReal.coe_mul _ _).symm

/-- The scale moves across the score's sum. -/
theorem scores_eq (q k : H → ℝ) (c : ℝ) :
    ∑ h, ((q h : EReal) * (c : EReal)) * (k h : EReal) = (((∑ h, q h * k h) * c : ℝ) : EReal) := by
  simp only [← EReal.coe_mul, ← coe_sum]
  exact congrArg _ (by rw [Finset.sum_mul]; exact Finset.sum_congr rfl fun h _ => by ring)

theorem scores_eq' (q k : H → ℝ) (c : ℝ) :
    (∑ h, (q h : EReal) * (k h : EReal)) * (c : EReal) = (((∑ h, q h * k h) * c : ℝ) : EReal) := by
  simp only [← EReal.coe_mul, ← coe_sum]

/-- Dividing a finite sum of products by a non-zero real is dividing the first factor of each term. -/
theorem div_sum (p v : Fin n → ℝ) (L : ℝ) (hL : L ≠ 0) :
    Ideal.div (∑ j, (p j : EReal) * (v j : EReal)) (L : EReal) = ∑ j, Ideal.div (p j : EReal) (L : EReal) * (v j : EReal) := by
  simp only [div_coe_coe _ _ hL, ← EReal.coe_mul, ← coe_sum]
  exact congrArg _ (by rw [Finset.sum_div]; exact Finset.sum_congr rfl fun j _ => by ring)

/-! ## The row -/

/-- The two arrangements of one attention row agree. -/
theorem row (hn : 0 < n) (q : H → ℝ) (k v : Fin n → H → ℝ) (c : ℝ) (h : H) :
    Ideal.div
        (∑ j, Ideal.exp ((∑ h', ((q h' : EReal) * (c : EReal)) * (k j h' : EReal))
            - (Finset.univ : Finset (Fin n)).fold max ⊥ (fun j' => ∑ h', ((q h' : EReal) * (c : EReal)) * (k j' h' : EReal))) * (v j h : EReal))
        (∑ j, Ideal.exp ((∑ h', ((q h' : EReal) * (c : EReal)) * (k j h' : EReal))
            - (Finset.univ : Finset (Fin n)).fold max ⊥ (fun j' => ∑ h', ((q h' : EReal) * (c : EReal)) * (k j' h' : EReal))))
      = ∑ j, Ideal.div
          (Ideal.exp ((∑ h', (q h' : EReal) * (k j h' : EReal)) * (c : EReal)
            - max ⊥ ((Finset.univ : Finset (Fin n)).fold max ⊥ (fun j' => (∑ h', (q h' : EReal) * (k j' h' : EReal)) * (c : EReal)))))
          (0 + ∑ j', Ideal.exp ((∑ h', (q h' : EReal) * (k j' h' : EReal)) * (c : EReal)
            - max ⊥ ((Finset.univ : Finset (Fin n)).fold max ⊥ (fun j'' => (∑ h', (q h' : EReal) * (k j'' h' : EReal)) * (c : EReal)))))
        * (v j h : EReal) := by
  haveI : Nonempty (Fin n) := ⟨⟨0, hn⟩⟩
  simp only [scores_eq, scores_eq']
  obtain ⟨m, hm⟩ := max_fold_max_real hn ⊥ ⊥ bot_ne_top bot_ne_top (fun j => (∑ h', q h' * k j h') * c)
  rw [max_eq_right bot_le] at hm
  simp only [max_eq_right bot_le, hm, zero_add, ← EReal.coe_sub, Ideal.exp_coe, ← coe_sum]
  exact div_sum _ _ _ (sum_exp_ne_zero fun j => (∑ h', q h' * k j h') * c - m)

end AttnLaw

end
-- ==== Proof.AttnSpec.lean ====
/-
  Single-head attention over [16, 2048, 68] inputs, stated twice on the extended reals, and the two statements equal
  at finite inputs.

  With x the input and W_q, W_k, W_v the three 68 × 64 weight matrices, the projections are
  proj x W (b, k, h) = ∑_c x(b,k,c)·W(c,h). The first statement (`tiled`) folds the scale into the query
  row, takes the row maximum of the scores from −∞, sums the exponentials against the value rows and divides
  once by their total. The second (`plain`) scales the score after the sum over the head, joins the maximum
  once more with −∞, divides every exponential by 0 + their total and then sums against the value rows, with
  the scale spelt 1 / √64. At real entries every projection is a real, and the two are one attention row
  (AttnLaw.row) with scale one eighth.
-/
import proofs.«158138_j30391188587331_2_alg».proof.Proof.LibAttnRow
import Idealize.ShloMosaic.Lib.ValueIdx

noncomputable section

namespace AttnSpec

open Finset Idealize.ShloMosaic Idealize.ShloMosaic.ValueIdx

abbrev SX : Shape := ⟨3, ![16, 2048, 68]⟩
abbrev SW : Shape := ⟨2, ![68, 64]⟩
abbrev SO : Shape := ⟨3, ![16, 2048, 64]⟩

/-- A row of x against a column of a weight matrix. -/
def proj (x : SX.Idx → EReal) (w : SW.Idx → EReal) (b : Fin 16) (k : Fin 2048) (h : Fin 64) : EReal :=
  ∑ c : Fin 68, x (ix3 b k c) * w (ix2 c h)

/-- Scores with the scale folded into the query row. -/
def tiledScore (x : SX.Idx → EReal) (wk wq : SW.Idx → EReal) (b : Fin 16) (r j : Fin 2048) : EReal :=
  ∑ h' : Fin 64, (proj x wq b r h' * Ideal.ofBits .f32 0x3E000000#32) * proj x wk b j h'

def tiledMax (x : SX.Idx → EReal) (wk wq : SW.Idx → EReal) (b : Fin 16) (r : Fin 2048) : EReal :=
  (Finset.univ : Finset (Fin 2048)).fold max (Ideal.ofBits .f32 0xFF800000#32) (fun j => tiledScore x wk wq b r j)

/-- Attention, normalised once after the sum over the keys. -/
def tiled (x : SX.Idx → EReal) (wk wq wv : SW.Idx → EReal) : SO.Idx → EReal := fun i =>
  Ideal.div (∑ j : Fin 2048, Ideal.exp (tiledScore x wk wq (i 0) (i 1) j - tiledMax x wk wq (i 0) (i 1)) * proj x wv (i 0) j (i 2))
    (∑ j : Fin 2048, Ideal.exp (tiledScore x wk wq (i 0) (i 1) j - tiledMax x wk wq (i 0) (i 1)))

/-- The scale as the plain statement spells it: one over the square root of 64. -/
def plainScale : EReal := Ideal.div (Ideal.ofBits .f32 0x3F800000#32) (Ideal.sqrt (Ideal.ofBits .f32 0x42800000#32))

/-- Scores scaled after the sum over the head. -/
def plainScore (x : SX.Idx → EReal) (wk wq : SW.Idx → EReal) (b : Fin 16) (r j : Fin 2048) : EReal :=
  (∑ h' : Fin 64, proj x wq b r h' * proj x wk b j h') * plainScale

def plainMax (x : SX.Idx → EReal) (wk wq : SW.Idx → EReal) (b : Fin 16) (r : Fin 2048) : EReal :=
  max (Ideal.ofBits .f32 0xFF800000#32)
    ((Finset.univ : Finset (Fin 2048)).fold max (Ideal.ofBits .f32 0xFF800000#32) (fun j => plainScore x wk wq b r j))

/-- Attention, every weight normalised before the sum over the keys. -/
def plain (x : SX.Idx → EReal) (wk wq wv : SW.Idx → EReal) : SO.Idx → EReal := fun i =>
  ∑ j : Fin 2048, Ideal.div (Ideal.exp (plainScore x wk wq (i 0) (i 1) j - plainMax x wk wq (i 0) (i 1)))
      (Ideal.ofBits .f32 0x00000000#32 + ∑ j' : Fin 2048, Ideal.exp (plainScore x wk wq (i 0) (i 1) j' - plainMax x wk wq (i 0) (i 1)))
    * proj x wv (i 0) j (i 2)

/-- At real entries the two statements are one function. -/
theorem tiled_eq_plain (x : SX.Idx → EReal) (wk wq wv : SW.Idx → EReal)
    (hx : ∀ i, ∃ r : ℝ, x i = (r : EReal)) (hk : ∀ i, ∃ r : ℝ, wk i = (r : EReal))
    (hq : ∀ i, ∃ r : ℝ, wq i = (r : EReal)) (hv : ∀ i, ∃ r : ℝ, wv i = (r : EReal)) :
    tiled x wk wq wv = plain x wk wq wv := by
  choose xr hxr using hx
  choose kr hkr using hk
  choose qr hqr using hq
  choose vr hvr using hv
  obtain rfl : x = fun i => (xr i : EReal) := funext hxr
  obtain rfl : wk = fun i => (kr i : EReal) := funext hkr
  obtain rfl : wq = fun i => (qr i : EReal) := funext hqr
  obtain rfl : wv = fun i => (vr i : EReal) := funext hvr
  funext i
  unfold tiled plain tiledMax plainMax tiledScore plainScore plainScale proj
  simp only [AttnLaw.coe_dot, AttnLaw.ofBits_eighth, AttnLaw.ofBits_neg_inf, AttnLaw.ofBits_one, AttnLaw.ofBits_64,
    AttnLaw.inv_sqrt_64, Ideal.ofBits_zero_f32]
  exact AttnLaw.row (n := 2048) (by norm_num) (fun h' => ∑ c : Fin 68, xr (ix3 (i 0) (i 1) c) * qr (ix2 c h'))
    (fun j h' => ∑ c : Fin 68, xr (ix3 (i 0) j c) * kr (ix2 c h')) (fun j h' => ∑ c : Fin 68, xr (ix3 (i 0) j c) * vr (ix2 c h'))
    (1 / 8) (i 2)

end AttnSpec

end
-- ==== Proof.IdealTile.lean ====
/-
  The output array of the attention region at the ideal values: the `tiled` statement of attention.

  First, generically: what each class of grid point stores is the body's arithmetic of the blocks it loads — the
  first tile stores the key and value projections of the whole batch row and the output tile computed from them,
  a later tile the output tile computed from the scratch buffers as they stand. Then, on the extended reals, the
  blocks are read off the arrays: the batch row of x at point t is row t / 4 of x, the query rows of tile t % 4
  are rows 512·(t % 4) … of it, and the three column bands of the concatenated weights are W_q, W_k, W_v. By
  induction on the point the scratch buffers hold the projections of batch row t / 4 and the output tile is the
  `tiled` attention of rows 512·(t % 4) … of batch row t / 4. The 64 output tiles tile the output array, so it
  ends holding `tiled` everywhere.
-/
import proofs.«158138_j30391188587331_2_alg».proof.Proof.IdealFrame
import proofs.«158138_j30391188587331_2_alg».proof.Proof.IdealPayload
import proofs.«158138_j30391188587331_2_alg».proof.Proof.AttnSpec
import Idealize.ShloMosaic.Lib.Pipeline.Value

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx AttnSpec

theorem hz2 : (![0, 0] : Fin 2 → ℕ) = fun _ => 0 := funext fun a => by fin_cases a <;> rfl
theorem hz3 : (![0, 0, 0] : Fin 3 → ℕ) = fun _ => 0 := funext fun a => by fin_cases a <;> rfl

/-! ## What each class of point stores, as the body's arithmetic of its loads -/

theorem keysFirst_eq (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : firstTile i) (x0 : Vec F S1x2048x68 .f32) (x1 : Vec F S68x192 .f32) :
    keysFirst c i arg2 harg2 arg3 harg3 arg4 harg4 arg5 harg5 arg6 harg6 hc x0 x1 = k0_pay2 x0 (View.ld x1 (Rect.unit ![0, 64] S68x64.size inb_S68x192_S68x64_0_64)) := by
  unfold keysFirst
  rw [View.read_writes_eq_canon _ _ _ (coverK_first c i arg2 harg2 arg3 harg3 arg4 harg4 arg5 harg5 arg6 harg6 hc x0 x1)]
  unfold runFirst; dsimp only; sl_unfold_words
  rw [View.canon_unit_zero hz2]
  simp only [View.readAt_eq_ld, harg2.read_unread, harg3.read_unread, View.ld_unit_zero (S := S1x2048x68) hz3]

theorem valsFirst_eq (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : firstTile i) (x0 : Vec F S1x2048x68 .f32) (x1 : Vec F S68x192 .f32) :
    valsFirst c i arg2 harg2 arg3 harg3 arg4 harg4 arg5 harg5 arg6 harg6 hc x0 x1 = k0_pay3 x0 (View.ld x1 (Rect.unit ![0, 128] S68x64.size inb_S68x192_S68x64_0_128)) := by
  unfold valsFirst
  rw [View.read_writes_eq_canon _ _ _ (coverV_first c i arg2 harg2 arg3 harg3 arg4 harg4 arg5 harg5 arg6 harg6 hc x0 x1)]
  unfold runFirst; dsimp only; sl_unfold_words
  rw [View.canon_unit_zero hz2]
  simp only [View.readAt_eq_ld, harg2.read_unread, harg3.read_unread, View.ld_unit_zero (S := S1x2048x68) hz3]

/-- The output tile from the query rows' block, the query weights' block and the two scratch contents. -/
def tilePay (i : grid0.Coords) (x0 : Vec F S1x2048x68 .f32) (x1 : Vec F S68x192 .f32) (k0 v0 : Vec F S2048x64 .bf16) : Vec F S1x512x64 .f32 :=
  k0_pay4 (View.ld x0 (Rect.unit (k0_off1 i) S1x512x68.size (k0_off1_inb i))) (View.ld x1 (Rect.unit ![0, 0] S68x64.size inb_S68x192_S68x64_0_0)) k0 v0

theorem outFirst_eq (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : firstTile i) (x0 : Vec F S1x2048x68 .f32) (x1 : Vec F S68x192 .f32) :
    outFirst c i arg2 harg2 arg3 harg3 arg4 harg4 arg5 harg5 arg6 harg6 hc x0 x1
      = tilePay i x0 x1 (k0_pay2 x0 (View.ld x1 (Rect.unit ![0, 64] S68x64.size inb_S68x192_S68x64_0_64)))
          (k0_pay3 x0 (View.ld x1 (Rect.unit ![0, 128] S68x64.size inb_S68x192_S68x64_0_128))) := by
  unfold outFirst tilePay
  rw [View.read_writes_eq_canon _ _ _ (coverO_first c i arg2 harg2 arg3 harg3 arg4 harg4 arg5 harg5 arg6 harg6 hc x0 x1)]
  unfold runFirst; dsimp only; sl_unfold_words
  rw [View.canon_unit_zero hz3]
  simp only [View.readAt_eq_ld, harg2.read_unread, harg3.read_unread, View.ld_unit_zero (S := S1x2048x68) hz3]
  rw [View.readCov_unit_zero (S := S2048x64) arg5.view hz2, View.readCov_unit_zero (S := S2048x64) arg6.view hz2]

theorem outLater_eq (c : Dev nD) (i : grid0.Coords) (arg2 : Memref sig .tc .vmem S1x2048x68 .f32) (harg2 : arg2.IsWhole) (arg3 : Memref sig .tc .vmem S68x192 .f32) (harg3 : arg3.IsWhole) (arg4 : Memref sig .tc .vmem S1x512x64 .f32) (harg4 : arg4.IsWhole) (arg5 : Memref sig .tc .vmem S2048x64 .bf16) (harg5 : arg5.IsWhole) (arg6 : Memref sig .tc .vmem S2048x64 .bf16) (harg6 : arg6.IsWhole) (hc : ¬firstTile i) (x0 : Vec F S1x2048x68 .f32) (x1 : Vec F S68x192 .f32) (k0 v0 : Vec F S2048x64 .bf16) :
    outLater c i arg2 harg2 arg3 harg3 arg4 harg4 arg5 harg5 arg6 harg6 hc x0 x1 k0 v0 = tilePay i x0 x1 k0 v0 := by
  unfold outLater tilePay
  rw [View.read_writes_eq_canon _ _ _ (coverO_later c i arg2 harg2 arg3 harg3 arg4 harg4 arg5 harg5 arg6 harg6 hc x0 x1 k0 v0)]
  unfold runLater; dsimp only; sl_unfold_words
  rw [View.canon_unit_zero hz3]
  simp only [View.readAt_eq_ld, harg2.read_unread, harg3.read_unread, harg5.read_unread, harg6.read_unread, View.ld_unit_zero (S := S2048x64) hz2]

end Cert.KernelIdeal.Attn

/-! ## On the extended reals -/

namespace Cert.KernelIdeal.AttnValue

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.Attn
open Idealize.ShloMosaic.ValueIdx AttnSpec

variable (m : (ℓ : Loc nD τ sig) → Buf (Elt Ideal) ℓ) (ρ : Dev nD → PrngReg)

/-- The argument arrays on core `c`. -/
abbrev xA (c : Dev nD) : S16x2048x68.Idx → EReal := m ((c : Thread nD τ).loc main_arg0)
abbrev wkA (c : Dev nD) : S68x64.Idx → EReal := m ((c : Thread nD τ).loc main_arg1)
abbrev wqA (c : Dev nD) : S68x64.Idx → EReal := m ((c : Thread nD τ).loc main_arg2)
abbrev wvA (c : Dev nD) : S68x64.Idx → EReal := m ((c : Thread nD τ).loc main_arg3)

/-- The batch row and the tile of a grid point. -/
def batchOf (t : Fin cfg0.N) : Fin 16 := ⟨t.val / 4, by have := t.isLt; have : cfg0.N = 64 := N_0; omega⟩
def rowOf (t : Fin cfg0.N) (r : Fin 512) : Fin 2048 := ⟨512 * (t.val % 4) + r.val, by have := r.isLt; omega⟩

/-- The printed index maps and the body's row offset, decided over the grid. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val / 4 ∧ win0_2.index t (1 : Fin 3) = t.val % 4 ∧ win0_2.index t (2 : Fin 3) = 0
    ∧ k0_off1 (grid0.coords t) (0 : Fin 3) = 0 ∧ k0_off1 (grid0.coords t) (1 : Fin 3) = 512 * (t.val % 4) ∧ k0_off1 (grid0.coords t) (2 : Fin 3) = 0 :=
  (by decide +kernel : ∀ t : Fin grid0.N, _)

/-- The region finds x as it was. -/
theorem V_x (c : Dev nD) : (V m c main_arg0 : S16x2048x68.Idx → EReal) = xA m c := V_main_arg0 m c

/-- The region finds the three weight matrices side by side. -/
theorem V_w (c : Dev nD) : (V m c main_v0 : S68x192.Idx → EReal)
    = concatenate S68x192 1 [⟨S68x64, wqA m c⟩, ⟨S68x64, wkA m c⟩, ⟨S68x64, wvA m c⟩] concatenates_S68x64_S68x64_S68x64_S68x192_d1 := by
  dsimp only [V, V0, hostOps0]; after_results3; rfl

/-- The batch row's block is row t / 4 of x. -/
theorem iblk0_apply (c : Dev nD) (t : Fin cfg0.N) (y : S1x2048x68.Idx) :
    iblk m c 0 t y = xA m c (ix3 (batchOf t) (y 1) (y 2)) := by
  obtain ⟨e0, e1, e2, -⟩ := idx_facts t
  show (V m c main_arg0 : S16x2048x68.Idx → EReal) (((cfg0.win 0).blk t).view.emb y) = _
  rw [V_x]
  refine congrArg (xA m c) (funext fun a => Fin.ext (by
    match a with
    | ⟨0, _⟩ => show win0_0.index t (0 : Fin 3) * 1 + 1 * (y 0).val = t.val / 4; have hj : (y 0).val < 1 := (y 0).isLt; omega
    | ⟨1, _⟩ => show win0_0.index t (1 : Fin 3) * 2048 + 1 * (y 1).val = (y 1).val; omega
    | ⟨2, _⟩ => show win0_0.index t (2 : Fin 3) * 68 + 1 * (y 2).val = (y 2).val; omega))

/-- The weights' block is the whole concatenated matrix. -/
theorem iblk1_apply (c : Dev nD) (t : Fin cfg0.N) (y : S68x192.Idx) :
    iblk m c 1 t y = (V m c main_v0 : S68x192.Idx → EReal) y := by
  obtain ⟨-, -, -, e3, e4, -⟩ := idx_facts t
  show (V m c main_v0 : S68x192.Idx → EReal) (((cfg0.win 1).blk t).view.emb y) = _
  refine congrArg _ (funext fun a => Fin.ext (by
    match a with
    | ⟨0, _⟩ => show win0_1.index t (0 : Fin 2) * 68 + 1 * (y 0).val = (y 0).val; omega
    | ⟨1, _⟩ => show win0_1.index t (1 : Fin 2) * 192 + 1 * (y 1).val = (y 1).val; omega))

/-! ## The three column bands of the concatenated weights -/

theorem cat_q (wq wk wv : S68x64.Idx → EReal) (hcat : Shape.Concatenates [S68x64, S68x64, S68x64] S68x192 1) (j : S68x192.Idx)
    (cc : Fin 68) (h : Fin 64) (h0 : (j 0).val = cc.val) (h1 : (j 1).val = h.val) :
    concatenate S68x192 1 [⟨S68x64, wq⟩, ⟨S68x64, wk⟩, ⟨S68x64, wv⟩] hcat j = wq (ix2 cc h) :=
  concatenate_apply_piece (1 : Fin S68x192.rank) [⟨S68x64, wq⟩, ⟨S68x64, wk⟩, ⟨S68x64, wv⟩] hcat j 0 (Nat.zero_lt_succ _) S68x64 wq rfl rfl 0 rfl (ix2 cc h)
    (fun b hb => by
      match b with
      | ⟨0, _⟩ => exact h0.symm
      | ⟨1, _⟩ => exact absurd rfl hb)
    (by show 0 + h.val = (j 1).val; omega)

theorem cat_k (wq wk wv : S68x64.Idx → EReal) (hcat : Shape.Concatenates [S68x64, S68x64, S68x64] S68x192 1) (j : S68x192.Idx)
    (cc : Fin 68) (h : Fin 64) (h0 : (j 0).val = cc.val) (h1 : (j 1).val = 64 + h.val) :
    concatenate S68x192 1 [⟨S68x64, wq⟩, ⟨S68x64, wk⟩, ⟨S68x64, wv⟩] hcat j = wk (ix2 cc h) :=
  concatenate_apply_piece (1 : Fin S68x192.rank) [⟨S68x64, wq⟩, ⟨S68x64, wk⟩, ⟨S68x64, wv⟩] hcat j 1 (Nat.succ_lt_succ (Nat.zero_lt_succ _)) S68x64 wk rfl rfl 64 rfl (ix2 cc h)
    (fun b hb => by
      match b with
      | ⟨0, _⟩ => exact h0.symm
      | ⟨1, _⟩ => exact absurd rfl hb)
    (by show 64 + h.val = (j 1).val; omega)

theorem cat_v (wq wk wv : S68x64.Idx → EReal) (hcat : Shape.Concatenates [S68x64, S68x64, S68x64] S68x192 1) (j : S68x192.Idx)
    (cc : Fin 68) (h : Fin 64) (h0 : (j 0).val = cc.val) (h1 : (j 1).val = 128 + h.val) :
    concatenate S68x192 1 [⟨S68x64, wq⟩, ⟨S68x64, wk⟩, ⟨S68x64, wv⟩] hcat j = wv (ix2 cc h) :=
  concatenate_apply_piece (1 : Fin S68x192.rank) [⟨S68x64, wq⟩, ⟨S68x64, wk⟩, ⟨S68x64, wv⟩] hcat j 2 (Nat.succ_lt_succ (Nat.succ_lt_succ (Nat.zero_lt_succ _))) S68x64 wv rfl rfl 128 rfl (ix2 cc h)
    (fun b hb => by
      match b with
      | ⟨0, _⟩ => exact h0.symm
      | ⟨1, _⟩ => exact absurd rfl hb)
    (by show 128 + h.val = (j 1).val; omega)

/-! ## The body's loads, read off the arrays -/

theorem ld_q (c : Dev nD) (t : Fin cfg0.N) (cc : Fin 68) (h : Fin 64) :
    View.ld (iblk m c 1 t) (Rect.unit ![0, 0] S68x64.size inb_S68x192_S68x64_0_0) (ix2 cc h) = wqA m c (ix2 cc h) := by
  show iblk m c 1 t _ = _
  rw [iblk1_apply, V_w]
  exact cat_q _ _ _ _ _ cc h (by show 0 + 1 * cc.val = cc.val; omega) (by show 0 + 1 * h.val = h.val; omega)

theorem ld_k (c : Dev nD) (t : Fin cfg0.N) (cc : Fin 68) (h : Fin 64) :
    View.ld (iblk m c 1 t) (Rect.unit ![0, 64] S68x64.size inb_S68x192_S68x64_0_64) (ix2 cc h) = wkA m c (ix2 cc h) := by
  show iblk m c 1 t _ = _
  rw [iblk1_apply, V_w]
  exact cat_k _ _ _ _ _ cc h (by show 0 + 1 * cc.val = cc.val; omega) (by show 64 + 1 * h.val = 64 + h.val; omega)

theorem ld_v (c : Dev nD) (t : Fin cfg0.N) (cc : Fin 68) (h : Fin 64) :
    View.ld (iblk m c 1 t) (Rect.unit ![0, 128] S68x64.size inb_S68x192_S68x64_0_128) (ix2 cc h) = wvA m c (ix2 cc h) := by
  show iblk m c 1 t _ = _
  rw [iblk1_apply, V_w]
  exact cat_v _ _ _ _ _ cc h (by show 0 + 1 * cc.val = cc.val; omega) (by show 128 + 1 * h.val = 128 + h.val; omega)

/-- The query rows' block of tile t % 4 is rows 512·(t % 4) … of batch row t / 4. -/
theorem ld_xq (c : Dev nD) (t : Fin cfg0.N) (u : Fin 1) (r : Fin 512) (cc : Fin 68) :
    View.ld (iblk m c 0 t) (Rect.unit (k0_off1 (grid0.coords t)) S1x512x68.size (k0_off1_inb (grid0.coords t))) (ix3 u r cc)
      = xA m c (ix3 (batchOf t) (rowOf t r) cc) := by
  obtain ⟨-, -, -, -, -, -, -, -, o0, o1, o2⟩ := idx_facts t
  show iblk m c 0 t _ = _
  rw [iblk0_apply]
  refine congrArg (xA m c) (funext fun a => Fin.ext (by
    match a with
    | ⟨0, _⟩ => rfl
    | ⟨1, _⟩ => show k0_off1 (grid0.coords t) (1 : Fin 3) + 1 * r.val = 512 * (t.val % 4) + r.val; omega
    | ⟨2, _⟩ => show k0_off1 (grid0.coords t) (2 : Fin 3) + 1 * cc.val = cc.val; omega))

/-! ## The projections and the tile, from blocks that are rows of the arrays -/

/-- The projection of batch row b by a weight matrix, as a [2048, 64] array. -/
def projRow (x : SX.Idx → EReal) (w : SW.Idx → EReal) (b : Fin 16) : S2048x64.Idx → EReal := fun j => proj x w b (j 0) (j 1)

section Blocks

variable (x : SX.Idx → EReal) (wk wq wv : SW.Idx → EReal) (b : Fin 16)
variable (x0 : Vec Ideal S1x2048x68 .f32) (x1 : Vec Ideal S68x192 .f32)

/-- From a block that is batch row b of x and a band that is W_k, the key payload is the projection of row b. -/
theorem keys_of (hx : ∀ (u : Fin 1) (k : Fin 2048) (cc : Fin 68), x0 (ix3 u k cc) = x (ix3 b k cc))
    (hk : ∀ (cc : Fin 68) (h : Fin 64), View.ld x1 (Rect.unit ![0, 64] S68x64.size inb_S68x192_S68x64_0_64) (ix2 cc h) = wk (ix2 cc h)) :
    k0_pay2 (F := Ideal) x0 (View.ld x1 (Rect.unit ![0, 64] S68x64.size inb_S68x192_S68x64_0_64)) = projRow x wk b := by
  funext j
  obtain ⟨k, h, rfl⟩ : ∃ (k : Fin 2048) (h : Fin 64), j = ix2 k h := ⟨j 0, j 1, eq_ix2 j⟩
  rw [keys_apply]
  unfold projRow proj
  exact Finset.sum_congr rfl fun cc _ => by rw [hx, hk]

theorem vals_of (hx : ∀ (u : Fin 1) (k : Fin 2048) (cc : Fin 68), x0 (ix3 u k cc) = x (ix3 b k cc))
    (hv : ∀ (cc : Fin 68) (h : Fin 64), View.ld x1 (Rect.unit ![0, 128] S68x64.size inb_S68x192_S68x64_0_128) (ix2 cc h) = wv (ix2 cc h)) :
    k0_pay3 (F := Ideal) x0 (View.ld x1 (Rect.unit ![0, 128] S68x64.size inb_S68x192_S68x64_0_128)) = projRow x wv b := by
  funext j
  obtain ⟨k, h, rfl⟩ : ∃ (k : Fin 2048) (h : Fin 64), j = ix2 k h := ⟨j 0, j 1, eq_ix2 j⟩
  rw [vals_apply]
  unfold projRow proj
  exact Finset.sum_congr rfl fun cc _ => by rw [hx, hv]

/-- From query rows R r of batch row b, the band W_q, and the projections of row b in the scratch buffers, the tile
    payload is the `tiled` attention of those rows. -/
theorem tile_of (i : grid0.Coords) (R : Fin 512 → Fin 2048)
    (hxq : ∀ (u : Fin 1) (r : Fin 512) (cc : Fin 68),
      View.ld x0 (Rect.unit (k0_off1 i) S1x512x68.size (k0_off1_inb i)) (ix3 u r cc) = x (ix3 b (R r) cc))
    (hq : ∀ (cc : Fin 68) (h : Fin 64), View.ld x1 (Rect.unit ![0, 0] S68x64.size inb_S68x192_S68x64_0_0) (ix2 cc h) = wq (ix2 cc h)) :
    tilePay (F := Ideal) i x0 x1 (projRow x wk b) (projRow x wv b) = fun y => tiled x wk wq wv (ix3 b (R (y 1)) (y 2)) := by
  funext y
  obtain ⟨u, r, h, rfl⟩ : ∃ (u : Fin 1) (r : Fin 512) (h : Fin 64), y = ix3 u r h := ⟨y 0, y 1, y 2, eq_ix3 y⟩
  unfold tilePay
  rw [tile_apply]
  have hs : ∀ j, score (View.ld x0 (Rect.unit (k0_off1 i) S1x512x68.size (k0_off1_inb i)))
      (View.ld x1 (Rect.unit ![0, 0] S68x64.size inb_S68x192_S68x64_0_0)) (projRow x wk b) r j = tiledScore x wk wq b (R r) j := fun j => by
    unfold score tiledScore proj
    exact Finset.sum_congr rfl fun h' _ => by
      rw [Finset.sum_congr rfl fun cc _ => by rw [hxq, hq]]
      rfl
  have hm : rowMax (View.ld x0 (Rect.unit (k0_off1 i) S1x512x68.size (k0_off1_inb i)))
      (View.ld x1 (Rect.unit ![0, 0] S68x64.size inb_S68x192_S68x64_0_0)) (projRow x wk b) r = tiledMax x wk wq b (R r) := by
    unfold rowMax tiledMax
    simp only [hs]
  unfold tiled
  simp only [hs, hm]
  rfl

end Blocks

/-! ## Point by point -/

/-- The `tiled` attention of the 512 rows of tile t % 4 of batch row t / 4, as a [1, 512, 64] block. -/
def tileOf (c : Dev nD) (t : Fin cfg0.N) : S1x512x64.Idx → EReal := fun y =>
  tiled (xA m c) (wkA m c) (wqA m c) (wvA m c) (ix3 (batchOf t) (rowOf t (y 1)) (y 2))

/-- What the output tile's buffer and the two scratch buffers hold after point t. -/
def specAt (c : Dev nD) (t : Fin cfg0.N) : Vec Ideal S1x512x64 .f32 × Vec Ideal S2048x64 .bf16 × Vec Ideal S2048x64 .bf16 :=
  (tileOf m c t, projRow (xA m c) (wkA m c) (batchOf t), projRow (xA m c) (wvA m c) (batchOf t))

theorem keys_at (c : Dev nD) (t : Fin cfg0.N) :
    k0_pay2 (F := Ideal) (iblk m c 0 t) (View.ld (S := S68x192) (iblk m c 1 t) (Rect.unit ![0, 64] S68x64.size inb_S68x192_S68x64_0_64))
      = projRow (xA m c) (wkA m c) (batchOf t) :=
  keys_of (xA m c) (wkA m c) (batchOf t) (iblk m c 0 t) (iblk m c 1 t) (fun u k cc => iblk0_apply m c t (ix3 u k cc)) (fun cc h => ld_k m c t cc h)

theorem vals_at (c : Dev nD) (t : Fin cfg0.N) :
    k0_pay3 (F := Ideal) (iblk m c 0 t) (View.ld (S := S68x192) (iblk m c 1 t) (Rect.unit ![0, 128] S68x64.size inb_S68x192_S68x64_0_128))
      = projRow (xA m c) (wvA m c) (batchOf t) :=
  vals_of (xA m c) (wvA m c) (batchOf t) (iblk m c 0 t) (iblk m c 1 t) (fun u k cc => iblk0_apply m c t (ix3 u k cc)) (fun cc h => ld_v m c t cc h)

theorem tile_at (c : Dev nD) (t : Fin cfg0.N) :
    tilePay (F := Ideal) (grid0.coords t) (iblk m c 0 t) (iblk m c 1 t) (projRow (xA m c) (wkA m c) (batchOf t)) (projRow (xA m c) (wvA m c) (batchOf t))
      = tileOf m c t :=
  tile_of (xA m c) (wkA m c) (wqA m c) (wvA m c) (batchOf t) (iblk m c 0 t) (iblk m c 1 t) (grid0.coords t) (rowOf t)
    (fun u r cc => ld_xq m c t u r cc) (fun cc h => ld_q m c t cc h)

theorem first_case (c : Dev nD) (t : Fin cfg0.N) (h0 : t.val % 4 = 0) : tileAt m c t.val t.isLt = specAt m c t := by
  rw [tileAt_first m c t h0, outFirst_eq, keysFirst_eq, valsFirst_eq, keys_at, vals_at, tile_at]
  rfl

theorem later_case (c : Dev nD) (t : Fin cfg0.N) (h0 : ¬t.val % 4 = 0)
    (ih : tileAt m c (t.val - 1) (Nat.lt_of_le_of_lt (Nat.sub_le _ _) t.isLt) = specAt m c ⟨t.val - 1, Nat.lt_of_le_of_lt (Nat.sub_le _ _) t.isLt⟩) :
    tileAt m c t.val t.isLt = specAt m c t := by
  have hb : batchOf ⟨t.val - 1, Nat.lt_of_le_of_lt (Nat.sub_le _ _) t.isLt⟩ = batchOf t := Fin.ext (by show (t.val - 1) / 4 = t.val / 4; omega)
  rw [tileAt_later m c t h0, ih, outLater_eq]
  unfold specAt
  dsimp only
  rw [hb, tile_at]

theorem tileAt_spec (c : Dev nD) (n : ℕ) : ∀ hn : n < cfg0.N, tileAt m c n hn = specAt m c ⟨n, hn⟩ := by
  induction n with
  | zero => intro hn; exact first_case m c ⟨0, hn⟩ (Nat.zero_mod 4)
  | succ n ih =>
    intro hn
    by_cases h0 : (n + 1) % 4 = 0
    · exact first_case m c ⟨n + 1, hn⟩ h0
    · exact later_case m c ⟨n + 1, hn⟩ h0 (ih _)

/-! ## Block by block to the whole array -/

/-- What point t writes back is block t of the `tiled` attention of the argument arrays. -/
theorem flushed_eq (c : Dev nD) (t : Fin cfg0.N) :
    (dats m 0 c).flushed 2 t = ((cfg0.win 2).blk t).view.read (Elt Ideal) (tiled (xA m c) (wkA m c) (wqA m c) (wvA m c)) := by
  show (cfg0.win 2).cut (grid0.coords t) ((dats m 0 c).after 2 t) = _
  rw [after2, tileAt_spec m c t.val t.isLt]
  obtain ⟨-, -, -, -, -, e5, e6, e7, -⟩ := idx_facts t
  funext y
  show tiled (xA m c) (wkA m c) (wqA m c) (wvA m c) (ix3 (batchOf t) (rowOf t (y 1)) (y 2))
    = tiled (xA m c) (wkA m c) (wqA m c) (wvA m c) (((cfg0.win 2).blk t).view.emb y)
  refine congrArg _ (funext fun a => Fin.ext (by
    match a with
    | ⟨0, _⟩ => show t.val / 4 = win0_2.index t (0 : Fin 3) * 1 + 1 * (y 0).val; have hj : (y 0).val < 1 := (y 0).isLt; omega
    | ⟨1, _⟩ => show 512 * (t.val % 4) + (y 1).val = win0_2.index t (1 : Fin 3) * 512 + 1 * (y 1).val; omega
    | ⟨2, _⟩ => show (y 2).val = win0_2.index t (2 : Fin 3) * 64 + 1 * (y 2).val; omega))

theorem mem_blk (t : Fin cfg0.N) (i : S16x2048x64.Idx) :
    i ∈ ((cfg0.win 2).blk t).view.set ↔ ∀ a : Fin 3, win0_2.index t a * S1x512x64.size a ≤ (i a).val ∧ (i a).val < win0_2.index t a * S1x512x64.size a + S1x512x64.size a := by
  show i ∈ ((View.whole main_v1).slice (win0_2.rect t)).set ↔ _
  rw [View.set_slice_whole, Rect.mem_set_unit]
  exact Iff.rfl

/-- The 64 output tiles cover the output array: row R of batch row b lies in the tile of point 4·b + R / 512. -/
theorem cover (i : S16x2048x64.Idx) : ∃ t : Fin cfg0.N, (cfg0.win 2).flush t = true ∧ i ∈ ((cfg0.win 2).blk t).view.set := by
  have hi0 : (i 0).val < 16 := (i 0).isLt
  have hi1 : (i 1).val < 2048 := (i 1).isLt
  have hi2 : (i 2).val < 64 := (i 2).isLt
  have hN : cfg0.N = 64 := N_0
  refine ⟨⟨4 * (i 0).val + (i 1).val / 512, by omega⟩, flush0_2 _, ?_⟩
  rw [mem_blk]
  obtain ⟨-, -, -, -, -, e5, e6, e7, -⟩ := idx_facts ⟨4 * (i 0).val + (i 1).val / 512, by omega⟩
  intro a
  match a with
  | ⟨0, _⟩ =>
    show win0_2.index _ (0 : Fin 3) * 1 ≤ (i 0).val ∧ (i 0).val < win0_2.index _ (0 : Fin 3) * 1 + 1
    rw [e5]; show (4 * (i 0).val + (i 1).val / 512) / 4 * 1 ≤ (i 0).val ∧ (i 0).val < (4 * (i 0).val + (i 1).val / 512) / 4 * 1 + 1; omega
  | ⟨1, _⟩ =>
    show win0_2.index _ (1 : Fin 3) * 512 ≤ (i 1).val ∧ (i 1).val < win0_2.index _ (1 : Fin 3) * 512 + 512
    rw [e6]; show (4 * (i 0).val + (i 1).val / 512) % 4 * 512 ≤ (i 1).val ∧ (i 1).val < (4 * (i 0).val + (i 1).val / 512) % 4 * 512 + 512; omega
  | ⟨2, _⟩ =>
    show win0_2.index _ (2 : Fin 3) * 64 ≤ (i 2).val ∧ (i 2).val < win0_2.index _ (2 : Fin 3) * 64 + 64
    rw [e7]; omega

/-- The output array after the run. -/
theorem final (c : Dev nD) : (dats m 0 c).arrAt 2 cfg0.N = tiled (xA m c) (wkA m c) (wqA m c) (wvA m c) :=
  (dats m 0 c).arrAt_eq_of_cover 2 _ (fun t _ => flushed_eq m c t) cover

/-- The run, read: the result array at the `tiled` attention of the argument arrays, which end unchanged. -/
theorem run : θ_run defs (onTc (τ := τ) (main (F := Ideal))) ⟨m, fun _ => 0, ρ⟩ fun r => ∀ c : Dev nD,
      r.2.mem ((c.tc : Thread nD τ).loc main_v1) = tiled (xA m c) (wkA m c) (wqA m c) (wvA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 2).trans (final m c),
     ((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).2 main_arg2 (Pipeline.mem_restRefs_of main_arg2 rfl (by decide))).trans (V_main_arg2 m c),
     ((h c).2 main_arg3 (Pipeline.mem_restRefs_of main_arg3 rfl (by decide))).trans (V_main_arg3 m c)⟩) (run_main m ρ)

end Cert.KernelIdeal.AttnValue

end
-- ==== Proof.RefRead.lean ====
/-
  The plain jnp attention program read entry by entry: its result is the `plain` statement of attention.

  The program's stages are read in order at explicit coordinates: the three projections (each a sum over the 68
  input channels), the scores (a sum over the head, then the scale 1/√64), the row maximum (a fold of max from −∞
  over the 2048 keys, joined once more with −∞), the exponentials, their total from 0, each exponential divided by
  the total, and the sum against the value rows.
-/
import proofs.«158138_j30391188587331_2_alg».proof.Proof.Gen.ReferenceIdeal.Read
import proofs.«158138_j30391188587331_2_alg».proof.Proof.AttnSpec

set_option maxRecDepth 16384

noncomputable section

namespace Cert.ReferenceIdeal.AttnRef

open Cert.ReferenceIdeal Cert.ReferenceIdeal.Gen Cert.ReferenceIdeal.Read Idealize.ShloMosaic Idealize.ShloMosaic.ValueIdx AttnSpec

variable (x0 : (⟨S16x2048x68, .f32⟩ : BufTy).Contents (Elt Ideal)) (x1 x2 x3 : (⟨S68x64, .f32⟩ : BufTy).Contents (Elt Ideal))

theorem keys_apply (b : Fin 16) (k : Fin 2048) (h : Fin 64) : val_main_v0 (F := Ideal) x0 x1 (ix3 b k h) = proj x0 x1 b k h := by
  rw [val_main_v0_apply]
  have el : ∀ c, lidx_main_v0 (ix3 b k h) c = ix3 b k c := fun c => funext fun a => Fin.ext (by match a with | ⟨0, _⟩ => rfl | ⟨1, _⟩ => rfl | ⟨2, _⟩ => rfl)
  have er : ∀ c, ridx_main_v0 (ix3 b k h) c = ix2 c h := fun c => funext fun a => Fin.ext (by match a with | ⟨0, _⟩ => rfl | ⟨1, _⟩ => rfl)
  simp only [el, er]; rfl

theorem queries_apply (b : Fin 16) (k : Fin 2048) (h : Fin 64) : val_main_v1 (F := Ideal) x0 x2 (ix3 b k h) = proj x0 x2 b k h := by
  rw [val_main_v1_apply]
  have el : ∀ c, lidx_main_v1 (ix3 b k h) c = ix3 b k c := fun c => funext fun a => Fin.ext (by match a with | ⟨0, _⟩ => rfl | ⟨1, _⟩ => rfl | ⟨2, _⟩ => rfl)
  have er : ∀ c, ridx_main_v1 (ix3 b k h) c = ix2 c h := fun c => funext fun a => Fin.ext (by match a with | ⟨0, _⟩ => rfl | ⟨1, _⟩ => rfl)
  simp only [el, er]; rfl

theorem values_apply (b : Fin 16) (k : Fin 2048) (h : Fin 64) : val_main_v2 (F := Ideal) x0 x3 (ix3 b k h) = proj x0 x3 b k h := by
  rw [val_main_v2_apply]
  have el : ∀ c, lidx_main_v2 (ix3 b k h) c = ix3 b k c := fun c => funext fun a => Fin.ext (by match a with | ⟨0, _⟩ => rfl | ⟨1, _⟩ => rfl | ⟨2, _⟩ => rfl)
  have er : ∀ c, ridx_main_v2 (ix3 b k h) c = ix2 c h := fun c => funext fun a => Fin.ext (by match a with | ⟨0, _⟩ => rfl | ⟨1, _⟩ => rfl)
  simp only [el, er]; rfl

theorem score_apply (b : Fin 16) (r j : Fin 2048) : val_main_v7 (F := Ideal) x0 x1 x2 (ix3 b r j) = plainScore x0 x1 x2 b r j := by
  rw [val_main_v7_apply, val_main_v5_apply, val_main_v6_apply, val_main_v4_apply, val_main_cst_0_apply, val_main_v3_apply, val_main_cst_apply]
  have el : ∀ c, lidx_main_v5 (ix3 b r j) c = ix3 b r c := fun c => funext fun a => Fin.ext (by match a with | ⟨0, _⟩ => rfl | ⟨1, _⟩ => rfl | ⟨2, _⟩ => rfl)
  have er : ∀ c, ridx_main_v5 (ix3 b r j) c = ix3 b j c := fun c => funext fun a => Fin.ext (by match a with | ⟨0, _⟩ => rfl | ⟨1, _⟩ => rfl | ⟨2, _⟩ => rfl)
  simp only [el, er, queries_apply, keys_apply]
  rfl

theorem lift_key (h : S16x2048x2048.Reduces [2] S16x2048) (b : Fin 16) (r : Fin 2048) (k : Fin (S16x2048x2048.size 2)) :
    h.lift (ix2 b r) k = ix3 b r (⟨k.val, k.isLt⟩ : Fin 2048) := by
  funext c; apply Fin.ext
  fin_cases c <;> rfl

theorem max_apply (b : Fin 16) (r : Fin 2048) : val_main_v10 (F := Ideal) x0 x1 x2 (ix2 b r) = plainMax x0 x1 x2 b r := by
  rw [val_main_v10_apply, val_main_v9_apply, val_main_cst_2_apply]
  unfold val_main_v8 plainMax
  rw [Host.reduce_eq_fold_single FloatOps.maximumf _ _ reducesTo_S16x2048x2048_S16x2048_d2 (by decide : S16x2048x2048.Reduces [2] S16x2048) h_S_]
  have hf : (val_main_v7 (F := Ideal) x0 x1 x2 ∘ (by decide : S16x2048x2048.Reduces [2] S16x2048).lift (ix2 b r)) = fun j : Fin 2048 => plainScore x0 x1 x2 b r j :=
    funext fun j => (congrArg _ (lift_key _ b r j)).trans (score_apply x0 x1 x2 b r _)
  rw [hf]
  rfl

theorem exp_apply (b : Fin 16) (r j : Fin 2048) :
    val_main_v14 (F := Ideal) x0 x1 x2 (ix3 b r j) = Ideal.exp (plainScore x0 x1 x2 b r j - plainMax x0 x1 x2 b r) := by
  rw [val_main_v14_apply, val_main_v13_apply, val_main_v12_apply, val_main_v11_apply, score_apply]
  have e1 : idx_main_v11 (idx_main_v12 (ix3 b r j)) = ix2 b r := funext fun a => Fin.ext (by match a with | ⟨0, _⟩ => rfl | ⟨1, _⟩ => rfl)
  rw [e1, max_apply]
  rfl

theorem total_apply (b : Fin 16) (r : Fin 2048) :
    val_main_v15 (F := Ideal) x0 x1 x2 (ix2 b r)
      = Ideal.ofBits .f32 0x00000000#32 + ∑ j : Fin 2048, Ideal.exp (plainScore x0 x1 x2 b r j - plainMax x0 x1 x2 b r) := by
  rw [val_main_v15_apply, val_main_cst_3_apply]
  have e1 : ∀ j, idx_main_v15 (ix2 b r) j = ix3 b r j := fun j => funext fun a => Fin.ext (by match a with | ⟨0, _⟩ => rfl | ⟨1, _⟩ => rfl | ⟨2, _⟩ => rfl)
  simp only [e1, exp_apply]
  rfl

/-- The program's result is the plain statement of attention. -/
theorem result_eq : val_main_v19 (F := Ideal) x0 x1 x2 x3 = plain x0 x1 x2 x3 := by
  funext i
  obtain ⟨b, r, h, rfl⟩ : ∃ (b : Fin 16) (r : Fin 2048) (h : Fin 64), i = ix3 b r h := ⟨i 0, i 1, i 2, eq_ix3 i⟩
  rw [val_main_v19_apply]
  unfold plain
  refine Finset.sum_congr rfl fun j _ => ?_
  have el : lidx_main_v19 (ix3 b r h) j = ix3 b r j := funext fun a => Fin.ext (by match a with | ⟨0, _⟩ => rfl | ⟨1, _⟩ => rfl | ⟨2, _⟩ => rfl)
  have er : ridx_main_v19 (ix3 b r h) j = ix3 b j h := funext fun a => Fin.ext (by match a with | ⟨0, _⟩ => rfl | ⟨1, _⟩ => rfl | ⟨2, _⟩ => rfl)
  rw [el, er, values_apply, val_main_v18_apply, val_main_v17_apply, val_main_v16_apply, exp_apply]
  have e1 : idx_main_v16 (idx_main_v17 (ix3 b r j)) = ix2 b r := funext fun a => Fin.ext (by match a with | ⟨0, _⟩ => rfl | ⟨1, _⟩ => rfl)
  rw [e1, total_apply]
  rfl

end Cert.ReferenceIdeal.AttnRef

end
-- ==== Proof.AttnFinite.lean ====
/-
  From the precondition to real entries.

  The precondition says, of each of the four arrays, that every entry's absolute value compares below +∞, and takes
  the conjunction. On the extended reals an entry x with max x (−x) < ⊤ is neither ⊤ nor ⊥: it is a real.
-/
import proofs.«158138_j30391188587331_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace AttnFinite

open Idealize.ShloMosaic Cert.Pre_finite_inputs

variable [Cert.Pre_finite_inputs.Facts]
open Cert.Pre_finite_inputs.Facts

instance : Subsingleton S_.Idx := ⟨fun a b => funext fun d => d.elim0⟩

/-- An extended real whose absolute value compares below +∞ is a real. -/
theorem real_of_abs_lt (x : EReal)
    (h : FloatOps.cmpf (F := Ideal) (φ := .f32) .olt (FloatOps.absf x) (Ideal.ofBits .f32 0x7F800000#32) = 1#1) : ∃ r : ℝ, x = (r : EReal) := by
  have htop : Ideal.ofBits .f32 0x7F800000#32 = ⊤ := by simp [Ideal.ofBits, Ideal.ieee]
  rw [Ideal.cmpf_def, Ideal.absf_def, htop] at h
  induction x using EReal.rec with
  | bot => simp [Ideal.cmp] at h
  | coe r => exact ⟨r, rfl⟩
  | top => simp [Ideal.cmp] at h

theorem finite_of_pre (a0 : FVec Ideal S16x2048x68 .f32) (a1 a2 a3 : FVec Ideal S68x64 .f32)
    (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  have h0 := congrFun h ValueIdx.ix0
  dsimp only [fn, fn_part1] at h0
  obtain ⟨h012, e3⟩ := IntOp.andi_eq_one.mp h0
  obtain ⟨h01, e2⟩ := IntOp.andi_eq_one.mp h012
  obtain ⟨e0, e1⟩ := IntOp.andi_eq_one.mp h01
  have key : ∀ {S : Shape} (a : FVec Ideal S .f32) (hb : S_.BroadcastsInDim S (![] : Fin 0 → Fin S.rank)) (i : S.Idx),
      cmpf .olt (Host.absf a) (broadcastInDim S ![] hb (constant S_ .f32 0x7F800000#32)) i = 1#1 → ∃ r : ℝ, a i = (r : EReal) := by
    intro S a hb i hi
    apply real_of_abs_lt
    rw [ValueIdx.cmpf_apply, broadcastInDim_apply _ hb _ i ValueIdx.ix0 (fun a => a.elim0)] at hi
    exact hi
  exact ⟨fun i => key a0 _ i (Host.reduce_andi_all _ _ _ _ _ e0 i), fun i => key a1 _ i (Host.reduce_andi_all _ _ _ _ _ e1 i),
    fun i => key a2 _ i (Host.reduce_andi_all _ _ _ _ _ e2 i), fun i => key a3 _ i (Host.reduce_andi_all _ _ _ _ _ e3 i)⟩

end AttnFinite

end
-- ==== Proof.lean ====
/-
  A fused single-head attention kernel against plain jnp attention, on [16, 2048, 68] inputs with a 64-wide head.

  The kernel lays W_q, W_k, W_v side by side and runs a 16 × 4 grid: at the first tile of a batch row it
  projects the row's keys and values into two scratch buffers, and at every tile it projects 512 query rows,
  scales them by 1/8, scores them against the keys, subtracts the row maximum, exponentiates, sums the
  exponentials against the values, and divides once by their total. The reference projects q, k, v for all
  rows, scales the scores by 1/√64 after the sum over the head, applies softmax (each exponential divided by the
  total) and sums against the values.

  Frames: each program runs to its end without a fault and leaves its four argument arrays as they were — for the
  kernel at the word level and at the ideal values by running the body at each class of grid points and launching
  the region (BitsFrame, IdealFrame), for the reference from its straight-line run.
  The idealization rewrote nothing, so there is nothing to preserve.
  Values: at the ideal values the kernel's result array is the `tiled` statement of attention (IdealTile), the
  reference's the `plain` one (RefRead); the precondition makes every input entry a real (AttnFinite), and at
  real entries the two statements are one function (AttnSpec, AttnLaw): 1/√64 = 1/8, the scale moves across
  the finite sum over the head, −∞ is neutral for the maximum, and dividing a finite sum by a non-zero total is
  dividing each of its terms.
-/
import proofs.«158138_j30391188587331_2_alg».proof.Defs
import proofs.«158138_j30391188587331_2_alg».proof.Proof.Gen.Kernel
import proofs.«158138_j30391188587331_2_alg».proof.Proof.Gen.KernelIdeal
import proofs.«158138_j30391188587331_2_alg».proof.Proof.Gen.ReferenceIdeal
import proofs.«158138_j30391188587331_2_alg».proof.Proof.Gen.Pre_finite_inputs
import proofs.«158138_j30391188587331_2_alg».proof.Proof.Gen.ReferenceIdeal.Read
import proofs.«158138_j30391188587331_2_alg».proof.Proof.BitsFrame
import proofs.«158138_j30391188587331_2_alg».proof.Proof.IdealTile
import proofs.«158138_j30391188587331_2_alg».proof.Proof.RefRead
import proofs.«158138_j30391188587331_2_alg».proof.Proof.AttnFinite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Attn.frame m ρ

theorem frame_kernelIdeal : Cert.frame_KernelIdeal := fun m ρ _ => Cert.KernelIdeal.Attn.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the `tiled` attention of the kernel's argument arrays in their result arrays. -/
theorem algebraic : Cert.algebraic_KernelIdeal_ReferenceIdeal := by
  intro m ρ m' ρ' hpre hagree
  refine ⟨fun c => AttnSpec.tiled (Cert.KernelIdeal.AttnValue.xA m c) (Cert.KernelIdeal.AttnValue.wkA m c)
    (Cert.KernelIdeal.AttnValue.wqA m c) (Cert.KernelIdeal.AttnValue.wvA m c), Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.AttnRef.result_eq,
    (hagree c).1, (hagree c).2.1, (hagree c).2.2.1, (hagree c).2.2.2]
  obtain ⟨f0, f1, f2, f3⟩ := AttnFinite.finite_of_pre _ _ _ _ (hpre c)
  exact (AttnSpec.tiled_eq_plain _ _ _ _ f0 f1 f2 f3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
